-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x64 : Shape := ⟨2, ![256, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S256x64 .f32) (main_arg9 : FVec F S64 .f32) (main_arg10 : FVec F S64x2 .f32) (main_arg11 : FVec F S2 .f32) (main_v33 : IVec S_ 1) : IVec S_ 1 :=
  let main_v34 : FVec F S256x64 .f32 := Host.absf main_arg8
  let main_cst_12 : FVec F S_ .f32 := constant S_ .f32 0x7F800000#32
  let main_v35 : FVec F S256x64 .f32 := broadcastInDim S256x64 ![] bcast_S_S256x64 main_cst_12
  let main_v36 : IVec S256x64 1 := cmpf .olt main_v34 main_v35
  let main_c_13 : IVec S_ 1 := constantI S_ 1 1#1
  let main_v37 : IVec S_ 1 := (fun x v => Host.reduce IntOp.andi x v reducesTo_S256x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S512 .f32) (main_arg6 : FVec F S512x256 .f32) (main_arg7 : FVec F S256 .f32) (main_arg8 : FVec F S256x64 .f32) (main_arg9 : FVec F S64 .f32) (main_arg10 : FVec F S64x2 .f32) (main_arg11 : FVec F S2 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x400000 32) (main_arg2 : FVec F S128x256 .f32) (main_arg3 : FVec F S256 .f32) (main_arg4 : FVec F S256x512 .f32) (main_arg5 : FVec F S512 .f32) (main_arg6 : FVec F S512x256 .f32) (main_arg7 : FVec F S256 .f32) (main_arg8 : FVec F S256x64 .f32) (main_arg9 : FVec F S64 .f32) (main_arg10 : FVec F S64x2 .f32) (main_arg11 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x512 .f32 := Host.absf main_arg4
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x400000 : Shape := ⟨2, ![2, 400000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x64 : Shape := ⟨2, ![256, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x256 : Shape := ⟨2, ![50000, 256]⟩
abbrev S2000x128 : Shape := ⟨2, ![2000, 128]⟩
abbrev S2000x256 : Shape := ⟨2, ![2000, 256]⟩
abbrev S450000x256 : Shape := ⟨2, ![450000, 256]⟩
abbrev S1x256 : Shape := ⟨2, ![1, 256]⟩
abbrev S50000x512 : Shape := ⟨2, ![50000, 512]⟩
abbrev S2000x512 : Shape := ⟨2, ![2000, 512]⟩
abbrev S450000x512 : Shape := ⟨2, ![450000, 512]⟩
abbrev S1x512 : Shape := ⟨2, ![1, 512]⟩
abbrev S50000x64 : Shape := ⟨2, ![50000, 64]⟩
abbrev S2000x64 : Shape := ⟨2, ![2000, 64]⟩
abbrev S450000x64 : Shape := ⟨2, ![450000, 64]⟩
abbrev S1x64 : Shape := ⟨2, ![1, 64]⟩
abbrev S50000x2 : Shape := ⟨2, ![50000, 2]⟩
abbrev S2000x2 : Shape := ⟨2, ![2000, 2]⟩
abbrev S450000x2 : Shape := ⟨2, ![450000, 2]⟩
abbrev S1x2 : Shape := ⟨2, ![1, 2]⟩
abbrev S50000x1 : Shape := ⟨2, ![50000, 1]⟩

abbrev nBuf : Space → Nat
  | .hbm => 179
  | .vmem => 25
  | .smem => 0
  | _ => 0

abbrev hbmTy0_0 (i : Nat) : BufTy := match i % 128 with
  | 0 => ⟨S50000x128, .f32⟩
  | 1 => ⟨S2x400000, .i32⟩
  | 2 => ⟨S128x256, .f32⟩
  | 3 => ⟨S256, .f32⟩
  | 4 => ⟨S256x512, .f32⟩
  | 5 => ⟨S512, .f32⟩
  | 6 => ⟨S512x256, .f32⟩
  | 7 => ⟨S256, .f32⟩
  | 8 => ⟨S256x64, .f32⟩
  | 9 => ⟨S64, .f32⟩
  | 10 => ⟨S64x2, .f32⟩
  | 11 => ⟨S2, .f32⟩
  | 12 => ⟨S50000, .i32⟩
  | 13 => ⟨S1x400000, .i32⟩
  | 14 => ⟨S400000, .i32⟩
  | 15 => ⟨S450000, .i32⟩
  | 16 => ⟨S1x400000, .i32⟩
  | 17 => ⟨S400000, .i32⟩
  | 18 => ⟨S450000, .i32⟩
  | 19 => ⟨S_, .f32⟩
  | 20 => ⟨S450000, .f32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000, .f32⟩
  | 42 => ⟨S_, .i32⟩
  | 43 => ⟨S450000, .i32⟩
  | 44 => ⟨S450000, .i1⟩
  | 45 => ⟨S_, .i32⟩
  | 46 => ⟨S450000, .i32⟩
  | 47 => ⟨S450000, .i32⟩
  | 48 => ⟨S450000, .i32⟩
  | 49 => ⟨S450000x1, .i32⟩
  | 50 => ⟨S450000, .f32⟩
  | 51 => ⟨S450000, .f32⟩
  | 52 => ⟨S50000x256, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000x256, .f32⟩
  | 62 => ⟨S450000x1, .f32⟩
  | 63 => ⟨S450000x256, .f32⟩
  | 64 => ⟨S450000x256, .f32⟩
  | 65 => ⟨S_, .f32⟩
  | 66 => ⟨S50000x256, .f32⟩
  | 67 => ⟨S450000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x512, .f32⟩
  | 76 => ⟨S_, .i32⟩
  | 77 => ⟨S450000, .i32⟩
  | 78 => ⟨S450000, .i1⟩
  | 79 => ⟨S_, .i32⟩
  | 80 => ⟨S450000, .i32⟩
  | 81 => ⟨S450000, .i32⟩
  | 82 => ⟨S450000, .i32⟩
  | 83 => ⟨S450000x1, .i32⟩
  | 84 => ⟨S450000x512, .f32⟩
  | 85 => ⟨S450000x1, .f32⟩
  | 86 => ⟨S450000x512, .f32⟩
  | 87 => ⟨S450000x512, .f32⟩
  | 88 => ⟨S_, .f32⟩
  | 89 => ⟨S50000x512, .f32⟩
  | 90 => ⟨S450000x1, .i32⟩
  | 91 => ⟨S50000x512, .f32⟩
  | 92 => ⟨S1x512, .f32⟩
  | 93 => ⟨S50000x512, .f32⟩
  | 94 => ⟨S50000x512, .f32⟩
  | 95 => ⟨S_, .f32⟩
  | 96 => ⟨S50000x512, .f32⟩
  | 97 => ⟨S50000x512, .f32⟩
  | 98 => ⟨S50000x256, .f32⟩
  | 99 => ⟨S_, .i32⟩
  | 100 => ⟨S450000, .i32⟩
  | 101 => ⟨S450000, .i1⟩
  | 102 => ⟨S_, .i32⟩
  | 103 => ⟨S450000, .i32⟩
  | 104 => ⟨S450000, .i32⟩
  | 105 => ⟨S450000, .i32⟩
  | 106 => ⟨S450000x1, .i32⟩
  | 107 => ⟨S450000x256, .f32⟩
  | 108 => ⟨S450000x1, .f32⟩
  | 109 => ⟨S450000x256, .f32⟩
  | 110 => ⟨S450000x256, .f32⟩
  | 111 => ⟨S_, .f32⟩
  | 112 => ⟨S50000x256, .f32⟩
  | 113 => ⟨S450000x1, .i32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x64, .f32⟩
  | 122 => ⟨S_, .i32⟩
  | 123 => ⟨S450000, .i32⟩
  | 124 => ⟨S450000, .i1⟩
  | 125 => ⟨S_, .i32⟩
  | 126 => ⟨S450000, .i32⟩
  | 127 => ⟨S450000, .i32⟩
  | _ => ⟨S50000x128, .f32⟩

abbrev hbmTy0_1 (i : Nat) : BufTy := match i % 128 with
  | 0 => ⟨S450000, .i32⟩
  | 1 => ⟨S450000x1, .i32⟩
  | 2 => ⟨S450000x64, .f32⟩
  | 3 => ⟨S450000x1, .f32⟩
  | 4 => ⟨S450000x64, .f32⟩
  | 5 => ⟨S450000x64, .f32⟩
  | 6 => ⟨S_, .f32⟩
  | 7 => ⟨S50000x64, .f32⟩
  | 8 => ⟨S450000x1, .i32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x2, .f32⟩
  | 17 => ⟨S_, .i32⟩
  | 18 => ⟨S450000, .i32⟩
  | 19 => ⟨S450000, .i1⟩
  | 20 => ⟨S_, .i32⟩
  | 21 => ⟨S450000, .i32⟩
  | 22 => ⟨S450000, .i32⟩
  | 23 => ⟨S450000, .i32⟩
  | 24 => ⟨S450000x1, .i32⟩
  | 25 => ⟨S450000x2, .f32⟩
  | 26 => ⟨S450000x1, .f32⟩
  | 27 => ⟨S450000x2, .f32⟩
  | 28 => ⟨S450000x2, .f32⟩
  | 29 => ⟨S_, .f32⟩
  | 30 => ⟨S50000x2, .f32⟩
  | 31 => ⟨S450000x1, .i32⟩
  | 32 => ⟨S50000x2, .f32⟩
  | 33 => ⟨S1x2, .f32⟩
  | 34 => ⟨S50000x2, .f32⟩
  | 35 => ⟨S50000x2, .f32⟩
  | 36 => ⟨S_, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x2, .f32⟩
  | 43 => ⟨S50000x2, .f32⟩
  | 44 => ⟨S50000x2, .f32⟩
  | 45 => ⟨S_, .f32⟩
  | 46 => ⟨S50000, .f32⟩
  | 47 => ⟨S50000x1, .f32⟩
  | 48 => ⟨S50000x1, .f32⟩
  | 49 => ⟨S50000x2, .f32⟩
  | 50 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x512, .f32⟩
  | .local _ .vmem, ⟨8, _⟩ => ⟨S2000x512, .f32⟩
  | .local _ .vmem, ⟨9, _⟩ => ⟨S2000x512, .f32⟩
  | .local _ .vmem, ⟨10, _⟩ => ⟨S2000x512, .f32⟩
  | .local _ .vmem, ⟨11, _⟩ => ⟨S2000x512, .f32⟩
  | .local _ .vmem, ⟨12, _⟩ => ⟨S512x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S64x2, .f32⟩
  | .local _ .vmem, ⟨23, _⟩ => ⟨S2000x2, .f32⟩
  | .local _ .vmem, ⟨24, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call2_cst : Ref sig .tc := ⟨.hbm, 72, rfl⟩
abbrev main_call2_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call4_cst : Ref sig .tc := ⟨.hbm, 95, rfl⟩
abbrev main_call4_v0 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call6_cst : Ref sig .tc := ⟨.hbm, 118, rfl⟩
abbrev main_call6_v0 : Ref sig .tc := ⟨.hbm, 119, rfl⟩
abbrev main_v83 : Ref sig .tc := ⟨.hbm, 120, rfl⟩
abbrev main_v84 : Ref sig .tc := ⟨.hbm, 121, rfl⟩
abbrev main_c_15 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call8_cst : Ref sig .tc := ⟨.hbm, 141, rfl⟩
abbrev main_call8_v0 : Ref sig .tc := ⟨.hbm, 142, rfl⟩
abbrev main_v101 : Ref sig .tc := ⟨.hbm, 143, rfl⟩
abbrev main_v102 : Ref sig .tc := ⟨.hbm, 144, rfl⟩
abbrev main_c_18 : Ref sig .tc := ⟨.hbm, 145, rfl⟩
abbrev main_v103 : Ref sig .tc := ⟨.hbm, 146, rfl⟩
abbrev main_v104 : Ref sig .tc := ⟨.hbm, 147, rfl⟩
abbrev main_c_19 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_20 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_call10_cst : Ref sig .tc := ⟨.hbm, 164, rfl⟩
abbrev main_call10_v0 : Ref sig .tc := ⟨.hbm, 165, rfl⟩
abbrev main_call10_cst_0 : Ref sig .tc := ⟨.hbm, 166, rfl⟩
abbrev main_call10_v1 : Ref sig .tc := ⟨.hbm, 167, rfl⟩
abbrev main_call10_v2 : Ref sig .tc := ⟨.hbm, 168, rfl⟩
abbrev main_call10_v3 : Ref sig .tc := ⟨.hbm, 169, rfl⟩
abbrev main_call10_v4 : Ref sig .tc := ⟨.hbm, 170, rfl⟩
abbrev main_call10_v5 : Ref sig .tc := ⟨.hbm, 171, rfl⟩
abbrev main_call10_v6 : Ref sig .tc := ⟨.hbm, 172, rfl⟩
abbrev main_call10_cst_1 : Ref sig .tc := ⟨.hbm, 173, rfl⟩
abbrev main_call10_v7 : Ref sig .tc := ⟨.hbm, 174, rfl⟩
abbrev main_call10_v8 : Ref sig .tc := ⟨.hbm, 175, rfl⟩
abbrev main_call10_v9 : Ref sig .tc := ⟨.hbm, 176, rfl⟩
abbrev main_call10_v10 : Ref sig .tc := ⟨.hbm, 177, rfl⟩
abbrev main_v119 : Ref sig .tc := ⟨.hbm, 178, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x512_S256x512_0_0 : ∀ a, (![0, 0] : Fin 2 → Nat) a + S256x512.size a ≤ S256x512.size a
  h_S256x512 : 0 < S256x512.numel
  inb_S2000x512_S2000x512_0_0 : ∀ a, (![0, 0] : Fin 2 → Nat) a + S2000x512.size a ≤ S2000x512.size a
  h_S2000x512 : 0 < S2000x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  inb_S256x64_S256x64_0_0 : ∀ a, (![0, 0] : Fin 2 → Nat) a + S256x64.size a ≤ S256x64.size a
  h_S256x64 : 0 < S256x64.numel
  inb_S2000x64_S2000x64_0_0 : ∀ a, (![0, 0] : Fin 2 → Nat) a + S2000x64.size a ≤ S2000x64.size a
  h_S2000x64 : 0 < S2000x64.numel
  bcast_S450000x1_S450000x64_0_1 : S450000x1.BroadcastsInDim S450000x64 (![0, 1] : Fin 2 → Fin S450000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S2000x64_S2000x64 : S2000x64.ShapeCasts S2000x64
  inb_S64x2_S64x2_0_0 : ∀ a, (![0, 0] : Fin 2 → Nat) a + S64x2.size a ≤ S64x2.size a
  h_S64x2 : 0 < S64x2.numel
  inb_S2000x2_S2000x2_0_0 : ∀ a, (![0, 0] : Fin 2 → Nat) a + S2000x2.size a ≤ S2000x2.size a
  h_S2000x2 : 0 < S2000x2.numel
  bcast_S450000x1_S450000x2_0_1 : S450000x1.BroadcastsInDim S450000x2 (![0, 1] : Fin 2 → Fin S450000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x128_S128x256_S2000x256_1_0_0_1_n_n_wf : DotDims.WF S2000x128 S128x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x512_S2000x512_1_0_0_1_n_n_wf : DotDims.WF S2000x256 S256x512 S2000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S2000x512_S512x256_S2000x256_1_0_0_1_n_n_wf : DotDims.WF S2000x512 S512x256 S2000x256 [1] [0] [0] [1] [] []
  dot_S2000x256_S256x64_S2000x64_1_0_0_1_n_n_wf : DotDims.WF S2000x256 S256x64 S2000x64 [1] [0] [0] [1] [] []
  gather_S50000x64_S450000x1_S450000x64_1_0_n_n_0_1_164_wf : GatherDims.WF S50000x64 S450000x1 S450000x64 [1] [0] [] [0] [] 1 ![1, 64]
  scatter_S50000x64_S450000x1_S450000x64_1_0_0_1_wf : ScatterDims.WF S50000x64 S450000x1 S450000x64 [1] [0] [0] 1
  dot_S2000x64_S64x2_S2000x2_1_0_0_1_n_n_wf : DotDims.WF S2000x64 S64x2 S2000x2 [1] [0] [0] [1] [] []
  gather_S50000x2_S450000x1_S450000x2_1_0_n_n_0_1_12_wf : GatherDims.WF S50000x2 S450000x1 S450000x2 [1] [0] [] [0] [] 1 ![1, 2]
  scatter_S50000x2_S450000x1_S450000x2_1_0_0_1_wf : ScatterDims.WF S50000x2 S450000x1 S450000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .f32 = 32 ∨ (Rect.block (s := S50000x512) S2000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .f32 = 32 ∨ (Rect.block (s := S50000x512) S2000x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S512x256.size a
  hwx2_1 : ∀ i : grid2.Coords, EltTy.bits .f32 = 32 ∨ (Rect.block (s := S512x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x64.size a ≤ S256x64.size a
  hwx3_1 : ∀ i : grid3.Coords, EltTy.bits .f32 = 32 ∨ (Rect.block (s := S256x64) S256x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x2.size a ≤ S64x2.size a
  hwx4_1 : ∀ i : grid4.Coords, EltTy.bits .f32 = 32 ∨ (Rect.block (s := S64x2) S64x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x2.size a ≤ S50000x2.size a
  hwx4_2 : ∀ i : grid4.Coords, EltTy.bits .f32 = 32 ∨ (Rect.block (s := S50000x2) S2000x2.size (cc4_transform_2 i) (hinb4_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S50000x64_S450000x1_S450000x64_1_0_n_n_0_1_164 : GatherDims S50000x64 S450000x1 S450000x64 where
  offsetDims := [1]
  collapsedSliceDims := [0]
  operandBatchingDims := []
  startIndicesBatchingDims := []
  startIndexMap := [0]
  indexVectorDim := 1
  sliceSizes := ![1, 64]
  wf := gather_S50000x64_S450000x1_S450000x64_1_0_n_n_0_1_164_wf
def scatter_S50000x64_S450000x1_S450000x64_1_0_0_1 : ScatterDims S50000x64 S450000x1 S450000x64 where
  updateWindowDims := [1]
  insertedWindowDims := [0]
  scatterDimsToOperandDims := [0]
  indexVectorDim := 1
  wf := scatter_S50000x64_S450000x1_S450000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def gather_S50000x2_S450000x1_S450000x2_1_0_n_n_0_1_12 : GatherDims S50000x2 S450000x1 S450000x2 where
  offsetDims := [1]
  collapsedSliceDims := [0]
  operandBatchingDims := []
  startIndicesBatchingDims := []
  startIndexMap := [0]
  indexVectorDim := 1
  sliceSizes := ![1, 2]
  wf := gather_S50000x2_S450000x1_S450000x2_1_0_n_n_0_1_12_wf
def scatter_S50000x2_S450000x1_S450000x2_1_0_0_1 : ScatterDims S50000x2 S450000x1 S450000x2 where
  updateWindowDims := [1]
  insertedWindowDims := [0]
  scatterDimsToOperandDims := [0]
  indexVectorDim := 1
  wf := scatter_S50000x2_S450000x1_S450000x2_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S2000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S512x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v83) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v101) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v102) S2000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S256x64 : Shape := ⟨2, ![256, 64]⟩
abbrev S64 : Shape := ⟨1, ![64]⟩
abbrev S64x2 : Shape := ⟨2, ![64, 2]⟩
abbrev S2 : Shape := ⟨1, ![2]⟩
abbrev S50000 : Shape := ⟨1, ![50000]⟩
abbrev S1x400000 : Shape := ⟨2, ![1, 400000]⟩
abbrev S400000 : Shape := ⟨1, ![400000]⟩
abbrev S450000 : Shape := ⟨1, ![450000]⟩
abbrev S_ : Shape := ⟨0, ![]⟩
abbrev S450000x1 : Shape := ⟨2, ![450000, 1]⟩
abbrev S50000x256 : Shape := ⟨2, ![50000, 256]⟩
abbrev S450000x256 : Shape := ⟨2, ![450000, 256]⟩
abbrev S1x256 : Shape := ⟨2, ![1, 256]⟩
abbrev S50000x512 : Shape := ⟨2, ![50000, 512]⟩
abbrev S450000x512 : Shape := ⟨2, ![450000, 512]⟩
abbrev S1x512 : Shape := ⟨2, ![1, 512]⟩
abbrev S50000x64 : Shape := ⟨2, ![50000, 64]⟩
abbrev S450000x64 : Shape := ⟨2, ![450000, 64]⟩
abbrev S1x64 : Shape := ⟨2, ![1, 64]⟩
abbrev S50000x2 : Shape := ⟨2, ![50000, 2]⟩
abbrev S450000x2 : Shape := ⟨2, ![450000, 2]⟩
abbrev S1x2 : Shape := ⟨2, ![1, 2]⟩
abbrev S50000x1 : Shape := ⟨2, ![50000, 1]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x400000, .i32⟩
  | 2 => ⟨S128x256, .f32⟩
  | 3 => ⟨S256, .f32⟩
  | 4 => ⟨S256x512, .f32⟩
  | 5 => ⟨S512, .f32⟩
  | 6 => ⟨S512x256, .f32⟩
  | 7 => ⟨S256, .f32⟩
  | 8 => ⟨S256x64, .f32⟩
  | 9 => ⟨S64, .f32⟩
  | 10 => ⟨S64x2, .f32⟩
  | 11 => ⟨S2, .f32⟩
  | 12 => ⟨S50000, .i32⟩
  | 13 => ⟨S1x400000, .i32⟩
  | 14 => ⟨S400000, .i32⟩
  | 15 => ⟨S450000, .i32⟩
  | 16 => ⟨S1x400000, .i32⟩
  | 17 => ⟨S400000, .i32⟩
  | 18 => ⟨S450000, .i32⟩
  | 19 => ⟨S_, .f32⟩
  | 20 => ⟨S450000, .f32⟩
  | 21 => ⟨S_, .f32⟩
  | 22 => ⟨S50000, .f32⟩
  | 23 => ⟨S450000x1, .i32⟩
  | 24 => ⟨S50000, .f32⟩
  | 25 => ⟨S_, .f32⟩
  | 26 => ⟨S50000, .f32⟩
  | 27 => ⟨S50000, .i1⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S450000, .i32⟩
  | 35 => ⟨S450000, .i1⟩
  | 36 => ⟨S_, .i32⟩
  | 37 => ⟨S450000, .i32⟩
  | 38 => ⟨S450000, .i32⟩
  | 39 => ⟨S450000, .i32⟩
  | 40 => ⟨S450000x1, .i32⟩
  | 41 => ⟨S450000, .f32⟩
  | 42 => ⟨S_, .i32⟩
  | 43 => ⟨S450000, .i32⟩
  | 44 => ⟨S450000, .i1⟩
  | 45 => ⟨S_, .i32⟩
  | 46 => ⟨S450000, .i32⟩
  | 47 => ⟨S450000, .i32⟩
  | 48 => ⟨S450000, .i32⟩
  | 49 => ⟨S450000x1, .i32⟩
  | 50 => ⟨S450000, .f32⟩
  | 51 => ⟨S450000, .f32⟩
  | 52 => ⟨S50000x256, .f32⟩
  | 53 => ⟨S_, .i32⟩
  | 54 => ⟨S450000, .i32⟩
  | 55 => ⟨S450000, .i1⟩
  | 56 => ⟨S_, .i32⟩
  | 57 => ⟨S450000, .i32⟩
  | 58 => ⟨S450000, .i32⟩
  | 59 => ⟨S450000, .i32⟩
  | 60 => ⟨S450000x1, .i32⟩
  | 61 => ⟨S450000x256, .f32⟩
  | 62 => ⟨S450000x1, .f32⟩
  | 63 => ⟨S450000x256, .f32⟩
  | 64 => ⟨S450000x256, .f32⟩
  | 65 => ⟨S_, .f32⟩
  | 66 => ⟨S50000x256, .f32⟩
  | 67 => ⟨S450000x1, .i32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S50000x256, .f32⟩
  | 74 => ⟨S50000x256, .f32⟩
  | 75 => ⟨S50000x512, .f32⟩
  | 76 => ⟨S_, .i32⟩
  | 77 => ⟨S450000, .i32⟩
  | 78 => ⟨S450000, .i1⟩
  | 79 => ⟨S_, .i32⟩
  | 80 => ⟨S450000, .i32⟩
  | 81 => ⟨S450000, .i32⟩
  | 82 => ⟨S450000, .i32⟩
  | 83 => ⟨S450000x1, .i32⟩
  | 84 => ⟨S450000x512, .f32⟩
  | 85 => ⟨S450000x1, .f32⟩
  | 86 => ⟨S450000x512, .f32⟩
  | 87 => ⟨S450000x512, .f32⟩
  | 88 => ⟨S_, .f32⟩
  | 89 => ⟨S50000x512, .f32⟩
  | 90 => ⟨S450000x1, .i32⟩
  | 91 => ⟨S50000x512, .f32⟩
  | 92 => ⟨S1x512, .f32⟩
  | 93 => ⟨S50000x512, .f32⟩
  | 94 => ⟨S50000x512, .f32⟩
  | 95 => ⟨S_, .f32⟩
  | 96 => ⟨S50000x512, .f32⟩
  | 97 => ⟨S50000x512, .f32⟩
  | 98 => ⟨S50000x256, .f32⟩
  | 99 => ⟨S_, .i32⟩
  | 100 => ⟨S450000, .i32⟩
  | 101 => ⟨S450000, .i1⟩
  | 102 => ⟨S_, .i32⟩
  | 103 => ⟨S450000, .i32⟩
  | 104 => ⟨S450000, .i32⟩
  | 105 => ⟨S450000, .i32⟩
  | 106 => ⟨S450000x1, .i32⟩
  | 107 => ⟨S450000x256, .f32⟩
  | 108 => ⟨S450000x1, .f32⟩
  | 109 => ⟨S450000x256, .f32⟩
  | 110 => ⟨S450000x256, .f32⟩
  | 111 => ⟨S_, .f32⟩
  | 112 => ⟨S50000x256, .f32⟩
  | 113 => ⟨S450000x1, .i32⟩
  | 114 => ⟨S50000x256, .f32⟩
  | 115 => ⟨S1x256, .f32⟩
  | 116 => ⟨S50000x256, .f32⟩
  | 117 => ⟨S50000x256, .f32⟩
  | 118 => ⟨S_, .f32⟩
  | 119 => ⟨S50000x256, .f32⟩
  | 120 => ⟨S50000x256, .f32⟩
  | 121 => ⟨S50000x64, .f32⟩
  | 122 => ⟨S_, .i32⟩
  | 123 => ⟨S450000, .i32⟩
  | 124 => ⟨S450000, .i1⟩
  | 125 => ⟨S_, .i32⟩
  | 126 => ⟨S450000, .i32⟩
  | 127 => ⟨S450000, .i32⟩
  | _ => ⟨S50000x128, .f32⟩

abbrev hbmTy0_1 (i : Nat) : BufTy := match i % 128 with
  | 0 => ⟨S450000, .i32⟩
  | 1 => ⟨S450000x1, .i32⟩
  | 2 => ⟨S450000x64, .f32⟩
  | 3 => ⟨S450000x1, .f32⟩
  | 4 => ⟨S450000x64, .f32⟩
  | 5 => ⟨S450000x64, .f32⟩
  | 6 => ⟨S_, .f32⟩
  | 7 => ⟨S50000x64, .f32⟩
  | 8 => ⟨S450000x1, .i32⟩
  | 9 => ⟨S50000x64, .f32⟩
  | 10 => ⟨S1x64, .f32⟩
  | 11 => ⟨S50000x64, .f32⟩
  | 12 => ⟨S50000x64, .f32⟩
  | 13 => ⟨S_, .f32⟩
  | 14 => ⟨S50000x64, .f32⟩
  | 15 => ⟨S50000x64, .f32⟩
  | 16 => ⟨S50000x2, .f32⟩
  | 17 => ⟨S_, .i32⟩
  | 18 => ⟨S450000, .i32⟩
  | 19 => ⟨S450000, .i1⟩
  | 20 => ⟨S_, .i32⟩
  | 21 => ⟨S450000, .i32⟩
  | 22 => ⟨S450000, .i32⟩
  | 23 => ⟨S450000, .i32⟩
  | 24 => ⟨S450000x1, .i32⟩
  | 25 => ⟨S450000x2, .f32⟩
  | 26 => ⟨S450000x1, .f32⟩
  | 27 => ⟨S450000x2, .f32⟩
  | 28 => ⟨S450000x2, .f32⟩
  | 29 => ⟨S_, .f32⟩
  | 30 => ⟨S50000x2, .f32⟩
  | 31 => ⟨S450000x1, .i32⟩
  | 32 => ⟨S50000x2, .f32⟩
  | 33 => ⟨S1x2, .f32⟩
  | 34 => ⟨S50000x2, .f32⟩
  | 35 => ⟨S50000x2, .f32⟩
  | 36 => ⟨S_, .f32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x2, .f32⟩
  | 43 => ⟨S50000x2, .f32⟩
  | 44 => ⟨S50000x2, .f32⟩
  | 45 => ⟨S_, .f32⟩
  | 46 => ⟨S50000, .f32⟩
  | 47 => ⟨S50000x1, .f32⟩
  | 48 => ⟨S50000x1, .f32⟩
  | 49 => ⟨S50000x2, .f32⟩
  | 50 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_v49 : Ref sig .tc := ⟨.hbm, 77, rfl⟩
abbrev main_v50 : Ref sig .tc := ⟨.hbm, 78, rfl⟩
abbrev main_c_10 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_call2_cst : Ref sig .tc := ⟨.hbm, 95, rfl⟩
abbrev main_call2_v0 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_call3_cst : Ref sig .tc := ⟨.hbm, 118, rfl⟩
abbrev main_call3_v0 : Ref sig .tc := ⟨.hbm, 119, rfl⟩
abbrev main_v83 : Ref sig .tc := ⟨.hbm, 120, rfl⟩
abbrev main_v84 : Ref sig .tc := ⟨.hbm, 121, rfl⟩
abbrev main_c_15 : Ref sig .tc := ⟨.hbm, 122, rfl⟩
abbrev main_v85 : Ref sig .tc := ⟨.hbm, 123, rfl⟩
abbrev main_v86 : Ref sig .tc := ⟨.hbm, 124, rfl⟩
abbrev main_c_16 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_17 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_call4_cst : Ref sig .tc := ⟨.hbm, 141, rfl⟩
abbrev main_call4_v0 : Ref sig .tc := ⟨.hbm, 142, rfl⟩
abbrev main_v101 : Ref sig .tc := ⟨.hbm, 143, rfl⟩
abbrev main_v102 : Ref sig .tc := ⟨.hbm, 144, rfl⟩
abbrev main_c_18 : Ref sig .tc := ⟨.hbm, 145, rfl⟩
abbrev main_v103 : Ref sig .tc := ⟨.hbm, 146, rfl⟩
abbrev main_v104 : Ref sig .tc := ⟨.hbm, 147, rfl⟩
abbrev main_c_19 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_20 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_call5_cst : Ref sig .tc := ⟨.hbm, 164, rfl⟩
abbrev main_call5_v0 : Ref sig .tc := ⟨.hbm, 165, rfl⟩
abbrev main_call5_cst_0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_v6 : Ref sig .tc := ⟨.hbm, 172, rfl⟩
abbrev main_call5_cst_1 : Ref sig .tc := ⟨.hbm, 173, rfl⟩
abbrev main_call5_v7 : Ref sig .tc := ⟨.hbm, 174, rfl⟩
abbrev main_call5_v8 : Ref sig .tc := ⟨.hbm, 175, rfl⟩
abbrev main_call5_v9 : Ref sig .tc := ⟨.hbm, 176, rfl⟩
abbrev main_call5_v10 : Ref sig .tc := ⟨.hbm, 177, rfl⟩
abbrev main_v119 : Ref sig .tc := ⟨.hbm, 178, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S50000_S450000_d0 : Shape.Concatenates [S400000, S50000] S450000 0
  slices_S2x400000_S1x400000_1_0 : S2x400000.Slices ![1, 0] S1x400000
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S450000x1_S450000x64_0_1 : S450000x1.BroadcastsInDim S450000x64 (![0, 1] : Fin 2 → Fin S450000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S450000x1_S450000x2_0_1 : S450000x1.BroadcastsInDim S450000x2 (![0, 1] : Fin 2 → Fin S450000x2.rank)
  bcast_S_S50000x2 : S_.BroadcastsInDim S50000x2 (![] : Fin 0 → Fin S50000x2.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x128_S128x256_S50000x256_1_0_0_1_n_n_wf : DotDims.WF S50000x128 S128x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x512_S50000x512_1_0_0_1_n_n_wf : DotDims.WF S50000x256 S256x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  dot_S50000x512_S512x256_S50000x256_1_0_0_1_n_n_wf : DotDims.WF S50000x512 S512x256 S50000x256 [1] [0] [0] [1] [] []
  dot_S50000x256_S256x64_S50000x64_1_0_0_1_n_n_wf : DotDims.WF S50000x256 S256x64 S50000x64 [1] [0] [0] [1] [] []
  gather_S50000x64_S450000x1_S450000x64_1_0_n_n_0_1_164_wf : GatherDims.WF S50000x64 S450000x1 S450000x64 [1] [0] [] [0] [] 1 ![1, 64]
  scatter_S50000x64_S450000x1_S450000x64_1_0_0_1_wf : ScatterDims.WF S50000x64 S450000x1 S450000x64 [1] [0] [0] 1
  dot_S50000x64_S64x2_S50000x2_1_0_0_1_n_n_wf : DotDims.WF S50000x64 S64x2 S50000x2 [1] [0] [0] [1] [] []
  gather_S50000x2_S450000x1_S450000x2_1_0_n_n_0_1_12_wf : GatherDims.WF S50000x2 S450000x1 S450000x2 [1] [0] [] [0] [] 1 ![1, 2]
  scatter_S50000x2_S450000x1_S450000x2_1_0_0_1_wf : ScatterDims.WF S50000x2 S450000x1 S450000x2 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def gather_S50000x64_S450000x1_S450000x64_1_0_n_n_0_1_164 : GatherDims S50000x64 S450000x1 S450000x64 where
  offsetDims := [1]
  collapsedSliceDims := [0]
  operandBatchingDims := []
  startIndicesBatchingDims := []
  startIndexMap := [0]
  indexVectorDim := 1
  sliceSizes := ![1, 64]
  wf := gather_S50000x64_S450000x1_S450000x64_1_0_n_n_0_1_164_wf
def scatter_S50000x64_S450000x1_S450000x64_1_0_0_1 : ScatterDims S50000x64 S450000x1 S450000x64 where
  updateWindowDims := [1]
  insertedWindowDims := [0]
  scatterDimsToOperandDims := [0]
  indexVectorDim := 1
  wf := scatter_S50000x64_S450000x1_S450000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def gather_S50000x2_S450000x1_S450000x2_1_0_n_n_0_1_12 : GatherDims S50000x2 S450000x1 S450000x2 where
  offsetDims := [1]
  collapsedSliceDims := [0]
  operandBatchingDims := []
  startIndicesBatchingDims := []
  startIndexMap := [0]
  indexVectorDim := 1
  sliceSizes := ![1, 2]
  wf := gather_S50000x2_S450000x1_S450000x2_1_0_n_n_0_1_12_wf
def scatter_S50000x2_S450000x1_S450000x2_1_0_0_1 : ScatterDims S50000x2 S450000x1 S450000x2 where
  updateWindowDims := [1]
  insertedWindowDims := [0]
  scatterDimsToOperandDims := [0]
  indexVectorDim := 1
  wf := scatter_S50000x2_S450000x1_S450000x2_1_0_0_1_wf

class Facts : Prop extends Facts₀ where

variable [Facts]
-- ==== Proof.FinalContents.lean ====
/-
  The idealized kernel program, run from any launch memory: every weakly fair execution terminates, and every final
  memory holds, at each buffer that lives for the whole program, the contents obtained by folding the program's
  stretches of host operations and its five row-tiled matrix products over the launch memory, in program order.
  The frame statement of this program reads only the argument buffers off that final memory; here the reading is left
  to the caller, so that the result buffer can be read as well.
-/
import proofs.«114422_j45749991637433_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Any property of the final memory that follows from "every whole-program buffer holds the fold's last contents"
    holds after every weakly fair execution, all of which terminate without a fault. -/
theorem run_final {Q : PUnit × MemSt nD τ sig (Elt F) → Prop}
    (hQ : ∀ s : MemSt nD τ sig (Elt F),
      (∀ c : Dev nD, ∀ b ∈ Pipeline.ucRefs τ sig, s.mem (((c : Thread nD τ)).1, b) = W18 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := hQ)

/-- The result buffer lives for the whole program. -/
theorem result_unscoped : Proc.devRef .tc main_v119 ∈ Pipeline.ucRefs τ sig := mem_uc main_v119 (by decide)

end Cert.KernelIdeal.Whole

end
-- ==== Proof.ReferenceFold.lean ====
/-
  The reference program is one straight line of 167 host operations (the operations of the functions it calls standing
  at their call sites). Run from any launch memory, every weakly fair execution terminates, each buffer ends at the
  fold of the operations' results over the launch contents, and no operation writes an argument. The result is stated
  as that fold read at the result buffer.
-/
import proofs.«114422_j45749991637433_1_alg».proof.Proof.ReferenceRun

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-- The reference's result on core `c`: the fold of its operations over the launch contents, read at the result buffer. -/
def result (m : (ℓ : Loc nD τ sig) → Buf (Elt F) ℓ) (c : Dev nD) : Buf (Elt F) ((c.tc : Thread nD τ).loc main_v119) :=
  after ops (launchContents m c) (Proc.devRef .tc main_v119)

set_option maxRecDepth 8192 in
set_option maxHeartbeats 66800000 in
/-- On every device, from any memory with zero counters: every weakly fair execution of the reference terminates with
    its result buffer at `result` and its twelve arguments unchanged (each argument's buffer is walked back through the
    line to the launch contents: no operation writes it). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v119,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.Fold

end
-- ==== Proof.Layer0.lean ====
/-
  Layer 1's dense transform. The kernel computes a [50000, 128] × [128, 256] product in 25 row tiles: grid point t loads
  rows 2000·t … 2000·t + 1999 of the left operand and the whole right operand, and stores the tile's [2000, 256] product
  (the change of float format on the operands is the identity on the extended reals, and the product is accumulated
  into zero). Entry (r, n) of a tile's product is the sum over k of left(2000·t + r, k) · right(k, n), which is entry
  (2000·t + r, n) of the whole product; the 25 tiles cover the 50000 rows. So after the region the output array holds
  the whole product of the two input arrays as the region found them, the input arrays are unchanged, and on the
  buffer contents the region acts exactly as the one host matrix product writing the output buffer.
-/
import proofs.«114422_j45749991637433_1_alg».proof.Proof.Gen.KernelIdeal.Frame
import proofs.«114422_j45749991637433_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Layer0

open Idealize.ShloMosaic Idealize.ShloMosaic.TcCoe Idealize.SL.Sem
open Idealize.ShloMosaic.Pipeline (Dat Cfg Window)
open Cert.KernelIdeal Cert.KernelIdeal.Gen

/-! ## The two products at an index, as sums over the contracted axis -/

/-- The left operand's position for entry `i` of the whole product and contracted position `k`: row `i 0`, column `k`. -/
abbrev lW (i : S50000x256.Idx) (k : Fin 128) : S50000x128.Idx := fun a => match a with
  | ⟨0, _⟩ => ⟨(i 0).val, (i 0).isLt⟩
  | ⟨1, _⟩ => ⟨k.val, k.isLt⟩
/-- The right operand's position for entry `i` of the whole product: row `k`, column `i 1`. -/
abbrev rW (i : S50000x256.Idx) (k : Fin 128) : S128x256.Idx := fun a => match a with
  | ⟨0, _⟩ => ⟨k.val, k.isLt⟩
  | ⟨1, _⟩ => ⟨(i 1).val, (i 1).isLt⟩
/-- The same two positions inside one tile, for entry `j` of the tile's product. -/
abbrev lB (j : S2000x256.Idx) (k : Fin 128) : S2000x128.Idx := fun a => match a with
  | ⟨0, _⟩ => ⟨(j 0).val, (j 0).isLt⟩
  | ⟨1, _⟩ => ⟨k.val, k.isLt⟩
abbrev rB (j : S2000x256.Idx) (k : Fin 128) : S128x256.Idx := fun a => match a with
  | ⟨0, _⟩ => ⟨k.val, k.isLt⟩
  | ⟨1, _⟩ => ⟨(j 1).val, (j 1).isLt⟩

theorem tile_lhs_0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem tile_lhs_1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem tile_rhs_0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem tile_rhs_1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem whole_lhs_0 (i : S50000x256.Idx) (q : Cert.ReferenceIdeal.dot_S50000x128_S128x256_S50000x256_1_0_0_1_n_n.contr.Idx) : (Cert.ReferenceIdeal.dot_S50000x128_S128x256_S50000x256_1_0_0_1_n_n.lhsIdx i q 0).val = (i 0).val := by
  unfold DotDims.lhsIdx
  rw [dif_neg (show ¬(0 : Fin S50000x128.rank) ∈ Cert.ReferenceIdeal.dot_S50000x128_S128x256_S50000x256_1_0_0_1_n_n.lhsBatch by decide), dif_pos (show (0 : Fin S50000x128.rank) ∈ Cert.ReferenceIdeal.dot_S50000x128_S128x256_S50000x256_1_0_0_1_n_n.lhsNonContracting by decide)]
  rfl
theorem whole_lhs_1 (i : S50000x256.Idx) (q : Cert.ReferenceIdeal.dot_S50000x128_S128x256_S50000x256_1_0_0_1_n_n.contr.Idx) : (Cert.ReferenceIdeal.dot_S50000x128_S128x256_S50000x256_1_0_0_1_n_n.lhsIdx i q 1).val = (q ⟨0, by decide⟩).val :=
  Cert.ReferenceIdeal.dot_S50000x128_S128x256_S50000x256_1_0_0_1_n_n.lhsIdx_val_of_single rfl i q
theorem whole_rhs_0 (i : S50000x256.Idx) (q : Cert.ReferenceIdeal.dot_S50000x128_S128x256_S50000x256_1_0_0_1_n_n.contr.Idx) : (Cert.ReferenceIdeal.dot_S50000x128_S128x256_S50000x256_1_0_0_1_n_n.rhsIdx i q 0).val = (q ⟨0, by decide⟩).val :=
  Cert.ReferenceIdeal.dot_S50000x128_S128x256_S50000x256_1_0_0_1_n_n.rhsIdx_val_of_single rfl i q
theorem whole_rhs_1 (i : S50000x256.Idx) (q : Cert.ReferenceIdeal.dot_S50000x128_S128x256_S50000x256_1_0_0_1_n_n.contr.Idx) : (Cert.ReferenceIdeal.dot_S50000x128_S128x256_S50000x256_1_0_0_1_n_n.rhsIdx i q 1).val = (i 1).val := by
  unfold DotDims.rhsIdx
  rw [dif_neg (show ¬(1 : Fin S128x256.rank) ∈ Cert.ReferenceIdeal.dot_S50000x128_S128x256_S50000x256_1_0_0_1_n_n.rhsBatch by decide), dif_pos (show (1 : Fin S128x256.rank) ∈ Cert.ReferenceIdeal.dot_S50000x128_S128x256_S50000x256_1_0_0_1_n_n.rhsNonContracting by decide)]
  rfl

/-- The whole product of a left and a right array. -/
def product (x : FVec Ideal S50000x128 .f32) (y : FVec Ideal S128x256 .f32) : FVec Ideal S50000x256 .f32 :=
  Host.dotGeneral (F := Ideal) Cert.ReferenceIdeal.dot_S50000x128_S128x256_S50000x256_1_0_0_1_n_n none x y

/-- Entry `i` of the whole product is the sum over `k` of left(i 0, k) · right(k, i 1). -/
theorem product_apply (x : FVec Ideal S50000x128 .f32) (y : FVec Ideal S128x256 .f32) (i : S50000x256.Idx) :
    product x y i = ∑ k : Fin 128, x (lW i k) * y (rW i k) := by
  unfold product
  simp only [Host.dotGeneral]
  rw [Ideal.dotGeneral_apply, ← Equiv.sum_comp (ValueIdx.contrEquiv1 Cert.ReferenceIdeal.dot_S50000x128_S128x256_S50000x256_1_0_0_1_n_n 128 rfl rfl).symm]
  refine Finset.sum_congr rfl fun k _ => ?_
  have hk := ValueIdx.contrEquiv1_symm_val Cert.ReferenceIdeal.dot_S50000x128_S128x256_S50000x256_1_0_0_1_n_n 128 rfl rfl k
  have el : Cert.ReferenceIdeal.dot_S50000x128_S128x256_S50000x256_1_0_0_1_n_n.lhsIdx i ((ValueIdx.contrEquiv1 Cert.ReferenceIdeal.dot_S50000x128_S128x256_S50000x256_1_0_0_1_n_n 128 rfl rfl).symm k) = lW i k := funext fun a => Fin.ext (by
    match a with
    | ⟨0, _⟩ => exact whole_lhs_0 _ _
    | ⟨1, _⟩ => exact (whole_lhs_1 _ _).trans hk)
  have er : Cert.ReferenceIdeal.dot_S50000x128_S128x256_S50000x256_1_0_0_1_n_n.rhsIdx i ((ValueIdx.contrEquiv1 Cert.ReferenceIdeal.dot_S50000x128_S128x256_S50000x256_1_0_0_1_n_n 128 rfl rfl).symm k) = rW i k := funext fun a => Fin.ext (by
    match a with
    | ⟨0, _⟩ => exact (whole_rhs_0 _ _).trans hk
    | ⟨1, _⟩ => exact whole_rhs_1 _ _)
  rw [el, er]

/-- Entry `j` of what one grid point stores is the sum over `k` of tile(j 0, k) · right(k, j 1): the two changes of
    float format are the identity, and the accumulator is zero. -/
theorem tile_apply (x0 : Vec Ideal S2000x128 .f32) (x1 : Vec Ideal S128x256 .f32) (j : S2000x256.Idx) :
    k0_pay1 (F := Ideal) x0 x1 j = ∑ k : Fin 128, x0 (lB j k) * x1 (rB j k) := by
  show FloatOps.matmul (F := Ideal) dot_S2000x128_S128x256_S2000x256_1_0_0_1_n_n none (truncf (F := Ideal) .bf16 x0 bitsLt_bf16_f32) (truncf (F := Ideal) .bf16 x1 bitsLt_bf16_f32) (constant (F := Ideal) S2000x256 .f32 0x00000000#32) j = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx j ((ValueIdx.contrEquiv1 dot_S2000x128_S128x256_S2000x256_1_0_0_1_n_n 128 rfl rfl).symm k) = lB j k := funext fun a => Fin.ext (by
    match a with
    | ⟨0, _⟩ => exact tile_lhs_0 _ _
    | ⟨1, _⟩ => exact (tile_lhs_1 _ _).trans hk)
  have er : dot_S2000x128_S128x256_S2000x256_1_0_0_1_n_n.rhsIdx j ((ValueIdx.contrEquiv1 dot_S2000x128_S128x256_S2000x256_1_0_0_1_n_n 128 rfl rfl).symm k) = rB j k := funext fun a => Fin.ext (by
    match a with
    | ⟨0, _⟩ => exact (tile_rhs_0 _ _).trans hk
    | ⟨1, _⟩ => exact tile_rhs_1 _ _)
  rw [el, er]
  rfl

/-- A tile's product is the whole product read at the tile's place: when the tile's rows are the left array's rows
    at `e0`, the loaded right operand is the right array at `e1`, and the two placements send the operand positions of
    tile entry `j` to those of array entry `i`. -/
theorem tile_eq_product (x : FVec Ideal S50000x128 .f32) (y : FVec Ideal S128x256 .f32) (x0 : Vec Ideal S2000x128 .f32) (x1 : Vec Ideal S128x256 .f32)
    (j : S2000x256.Idx) (i : S50000x256.Idx) (e0 : S2000x128.Idx → S50000x128.Idx) (e1 : S128x256.Idx → S128x256.Idx)
    (h0 : ∀ p, x0 p = x (e0 p)) (h1 : ∀ p, x1 p = y (e1 p))
    (hl : ∀ k : Fin 128, e0 (lB j k) = lW i k) (hr : ∀ k : Fin 128, e1 (rB j k) = rW i k) :
    k0_pay1 (F := Ideal) x0 x1 j = product x y i := by
  rw [tile_apply, product_apply]
  exact Finset.sum_congr rfl fun k _ => by rw [h0, h1, hl k, hr k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's tiles move down the rows with the point,
    the right operand stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is tile `t` of the whole product of the two input arrays as the region finds them. -/
theorem flushed_eq (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x256) hz]
  obtain ⟨e0, e1, e2, e3, e4, e5⟩ := idx_facts t
  funext j
  refine tile_eq_product (V c main_arg0) (V c main_arg2) _ _ j (((cfg0.win 2).blk t).view.emb j)
    (fun p => ((cfg0.win 0).blk t).view.emb p) (fun p => ((cfg0.win 1).blk t).view.emb p) (fun _ => rfl) (fun _ => rfl) ?_ ?_
  · intro k
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * k.val = k.val; omega
  · intro k
    funext a; apply Fin.ext
    match a with
    | ⟨0, _⟩ => show win0_1.index t (0 : Fin 2) * 128 + 1 * k.val = k.val; omega
    | ⟨1, _⟩ => show win0_1.index t (1 : Fin 2) * 256 + 1 * (j 1).val = win0_2.index t (1 : Fin 2) * 256 + 1 * (j 1).val; omega

/-- An index of the output array is in point `t`'s tile iff each coordinate is in the tile's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row `r` lies in the tile of point `r / 2000`: the 25 tiles cover the array. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : grid0.N = 25 := N_0
  have hlt : (i 0).val / 2000 < cfg0.N := by show _ < grid0.N; omega
  obtain ⟨e0, e1, e2, e3, e4, e5⟩ := idx_facts ⟨(i 0).val / 2000, hlt⟩
  refine ⟨⟨(i 0).val / 2000, hlt⟩, flush0_2 _, ?_⟩
  rw [mem_blk]
  intro a
  match a with
  | ⟨0, _⟩ =>
    show win0_2.index ⟨(i 0).val / 2000, hlt⟩ (0 : Fin 2) * 2000 ≤ (i 0).val ∧ (i 0).val < win0_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win0_2.index ⟨(i 0).val / 2000, hlt⟩ (1 : Fin 2) * 256 ≤ (i 1).val ∧ (i 1).val < win0_2.index ⟨(i 0).val / 2000, hlt⟩ (1 : Fin 2) * 256 + 256
    omega

/-- THE OUTPUT ARRAY after the region: the whole product of the input arrays as the region found them. -/
theorem region_value (c : Dev nD) : (dat0 V c).arrAt 2 cfg0.N = product (V c main_arg0) (V c main_arg2) :=
  (dat0 V c).arrAt_eq_of_cover 2 _ (fun t _ => flushed_eq V c t) cover

/-! ## The region as one host operation on the buffer contents -/

/-- The host matrix product from the left and right buffers into the output buffer. -/
def productOp : HloOp τ sig (Elt Ideal) :=
  StableHlo.binary main_arg0 main_arg2 main_v30 ((fun l r => product l r) : (⟨S50000x128, .f32⟩ : BufTy).Contents (Elt Ideal) → (⟨S128x256, .f32⟩ : BufTy).Contents (Elt Ideal) → (⟨S50000x256, .f32⟩ : BufTy).Contents (Elt Ideal))

/-- What the region leaves of a core's buffer contents — its three arrays at what the pipeline leaves, every other
    buffer as entered — is what the one host product leaves: the output buffer at the product of the two inputs,
    everything else, the two inputs included, as it was. -/
theorem exit_eq (Wc : Dev nD → Valuation τ sig (Elt Ideal)) (c : Dev nD) :
    Pipeline.withArrays spec0 c (Wc c) (fun w => (dat0 (fun c b => Wc c (Proc.devRef .tc b)) c).arrAt w cfg0.N)
      = productOp.result (Wc c) := by
  funext b
  by_cases hb : b = Proc.devRef .tc main_v30
  · subst hb
    unfold productOp
    rw [StableHlo.binary_result]
    exact (Pipeline.withArrays_arr spec0 launch0.win.arr_inj c _ _ 2).trans (region_value _ c)
  · have hnw : b ∉ (productOp).writes := by
      unfold productOp
      rw [StableHlo.binary_writes, Finset.mem_singleton]
      exact hb
    rw [HloOp.result_of_not_mem _ _ hnw]
    by_cases h0 : b = Proc.devRef .tc main_arg0
    · subst h0
      exact (Pipeline.withArrays_arr spec0 launch0.win.arr_inj c _ _ 0).trans (((dat0 _ c).arrAt_in 0 rfl _).trans (A_eq0 _ c 0))
    · by_cases h1 : b = Proc.devRef .tc main_arg2
      · subst h1
        exact (Pipeline.withArrays_arr spec0 launch0.win.arr_inj c _ _ 1).trans (((dat0 _ c).arrAt_in 1 rfl _).trans (A_eq0 _ c 1))
      · unfold Pipeline.withArrays
        refine dif_neg ?_
        rintro ⟨w, e⟩
        match w with
        | ⟨0, _⟩ => exact h0 e.symm
        | ⟨1, _⟩ => exact h1 e.symm
        | ⟨2, _⟩ => exact hb e.symm

end Cert.KernelIdeal.Layer0

end
-- ==== Proof.Layer1.lean ====
/-
  Layer 2's dense transform. The kernel computes a [50000, 256] × [256, 512] product in 25 row tiles: grid point t loads
  rows 2000·t … 2000·t + 1999 of the left operand and the whole right operand, and stores the tile's [2000, 512] product
  (the left tile's cast to its own shape and the change of float format on the operands are the identity on the
  extended reals, and the product is accumulated into zero). Entry (r, n) of a tile's product is the sum over k of left(2000·t + r, k) · right(k, n), which is entry
  (2000·t + r, n) of the whole product; the 25 tiles cover the 50000 rows. So after the region the output array holds
  the whole product of the two input arrays as the region found them, the input arrays are unchanged, and on the
  buffer contents the region acts exactly as the one host matrix product writing the output buffer.
-/
import proofs.«114422_j45749991637433_1_alg».proof.Proof.Gen.KernelIdeal.Frame
import proofs.«114422_j45749991637433_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Layer1

open Idealize.ShloMosaic Idealize.ShloMosaic.TcCoe Idealize.SL.Sem
open Idealize.ShloMosaic.Pipeline (Dat Cfg Window)
open Cert.KernelIdeal Cert.KernelIdeal.Gen

/-! ## The two products at an index, as sums over the contracted axis -/

/-- The left operand's position for entry `i` of the whole product and contracted position `k`: row `i 0`, column `k`. -/
abbrev lW (i : S50000x512.Idx) (k : Fin 256) : S50000x256.Idx := fun a => match a with
  | ⟨0, _⟩ => ⟨(i 0).val, (i 0).isLt⟩
  | ⟨1, _⟩ => ⟨k.val, k.isLt⟩
/-- The right operand's position for entry `i` of the whole product: row `k`, column `i 1`. -/
abbrev rW (i : S50000x512.Idx) (k : Fin 256) : S256x512.Idx := fun a => match a with
  | ⟨0, _⟩ => ⟨k.val, k.isLt⟩
  | ⟨1, _⟩ => ⟨(i 1).val, (i 1).isLt⟩
/-- The same two positions inside one tile, for entry `j` of the tile's product. -/
abbrev lB (j : S2000x512.Idx) (k : Fin 256) : S2000x256.Idx := fun a => match a with
  | ⟨0, _⟩ => ⟨(j 0).val, (j 0).isLt⟩
  | ⟨1, _⟩ => ⟨k.val, k.isLt⟩
abbrev rB (j : S2000x512.Idx) (k : Fin 256) : S256x512.Idx := fun a => match a with
  | ⟨0, _⟩ => ⟨k.val, k.isLt⟩
  | ⟨1, _⟩ => ⟨(j 1).val, (j 1).isLt⟩

theorem tile_lhs_0 (i : S2000x512.Idx) (q : dot_S2000x256_S256x512_S2000x512_1_0_0_1_n_n.contr.Idx) : (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem tile_lhs_1 (i : S2000x512.Idx) (q : dot_S2000x256_S256x512_S2000x512_1_0_0_1_n_n.contr.Idx) : (dot_S2000x256_S256x512_S2000x512_1_0_0_1_n_n.lhsIdx i q 1).val = (q ⟨0, by decide⟩).val :=
  dot_S2000x256_S256x512_S2000x512_1_0_0_1_n_n.lhsIdx_val_of_single rfl i q
theorem tile_rhs_0 (i : S2000x512.Idx) (q : dot_S2000x256_S256x512_S2000x512_1_0_0_1_n_n.contr.Idx) : (dot_S2000x256_S256x512_S2000x512_1_0_0_1_n_n.rhsIdx i q 0).val = (q ⟨0, by decide⟩).val :=
  dot_S2000x256_S256x512_S2000x512_1_0_0_1_n_n.rhsIdx_val_of_single rfl i q
theorem tile_rhs_1 (i : S2000x512.Idx) (q : dot_S2000x256_S256x512_S2000x512_1_0_0_1_n_n.contr.Idx) : (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

theorem whole_lhs_0 (i : S50000x512.Idx) (q : Cert.ReferenceIdeal.dot_S50000x256_S256x512_S50000x512_1_0_0_1_n_n.contr.Idx) : (Cert.ReferenceIdeal.dot_S50000x256_S256x512_S50000x512_1_0_0_1_n_n.lhsIdx i q 0).val = (i 0).val := by
  unfold DotDims.lhsIdx
  rw [dif_neg (show ¬(0 : Fin S50000x256.rank) ∈ Cert.ReferenceIdeal.dot_S50000x256_S256x512_S50000x512_1_0_0_1_n_n.lhsBatch by decide), dif_pos (show (0 : Fin S50000x256.rank) ∈ Cert.ReferenceIdeal.dot_S50000x256_S256x512_S50000x512_1_0_0_1_n_n.lhsNonContracting by decide)]
  rfl
theorem whole_lhs_1 (i : S50000x512.Idx) (q : Cert.ReferenceIdeal.dot_S50000x256_S256x512_S50000x512_1_0_0_1_n_n.contr.Idx) : (Cert.ReferenceIdeal.dot_S50000x256_S256x512_S50000x512_1_0_0_1_n_n.lhsIdx i q 1).val = (q ⟨0, by decide⟩).val :=
  Cert.ReferenceIdeal.dot_S50000x256_S256x512_S50000x512_1_0_0_1_n_n.lhsIdx_val_of_single rfl i q
theorem whole_rhs_0 (i : S50000x512.Idx) (q : Cert.ReferenceIdeal.dot_S50000x256_S256x512_S50000x512_1_0_0_1_n_n.contr.Idx) : (Cert.ReferenceIdeal.dot_S50000x256_S256x512_S50000x512_1_0_0_1_n_n.rhsIdx i q 0).val = (q ⟨0, by decide⟩).val :=
  Cert.ReferenceIdeal.dot_S50000x256_S256x512_S50000x512_1_0_0_1_n_n.rhsIdx_val_of_single rfl i q
theorem whole_rhs_1 (i : S50000x512.Idx) (q : Cert.ReferenceIdeal.dot_S50000x256_S256x512_S50000x512_1_0_0_1_n_n.contr.Idx) : (Cert.ReferenceIdeal.dot_S50000x256_S256x512_S50000x512_1_0_0_1_n_n.rhsIdx i q 1).val = (i 1).val := by
  unfold DotDims.rhsIdx
  rw [dif_neg (show ¬(1 : Fin S256x512.rank) ∈ Cert.ReferenceIdeal.dot_S50000x256_S256x512_S50000x512_1_0_0_1_n_n.rhsBatch by decide), dif_pos (show (1 : Fin S256x512.rank) ∈ Cert.ReferenceIdeal.dot_S50000x256_S256x512_S50000x512_1_0_0_1_n_n.rhsNonContracting by decide)]
  rfl

/-- The whole product of a left and a right array. -/
def product (x : FVec Ideal S50000x256 .f32) (y : FVec Ideal S256x512 .f32) : FVec Ideal S50000x512 .f32 :=
  Host.dotGeneral (F := Ideal) Cert.ReferenceIdeal.dot_S50000x256_S256x512_S50000x512_1_0_0_1_n_n none x y

/-- Entry `i` of the whole product is the sum over `k` of left(i 0, k) · right(k, i 1). -/
theorem product_apply (x : FVec Ideal S50000x256 .f32) (y : FVec Ideal S256x512 .f32) (i : S50000x512.Idx) :
    product x y i = ∑ k : Fin 256, x (lW i k) * y (rW i k) := by
  unfold product
  simp only [Host.dotGeneral]
  rw [Ideal.dotGeneral_apply, ← Equiv.sum_comp (ValueIdx.contrEquiv1 Cert.ReferenceIdeal.dot_S50000x256_S256x512_S50000x512_1_0_0_1_n_n 256 rfl rfl).symm]
  refine Finset.sum_congr rfl fun k _ => ?_
  have hk := ValueIdx.contrEquiv1_symm_val Cert.ReferenceIdeal.dot_S50000x256_S256x512_S50000x512_1_0_0_1_n_n 256 rfl rfl k
  have el : Cert.ReferenceIdeal.dot_S50000x256_S256x512_S50000x512_1_0_0_1_n_n.lhsIdx i ((ValueIdx.contrEquiv1 Cert.ReferenceIdeal.dot_S50000x256_S256x512_S50000x512_1_0_0_1_n_n 256 rfl rfl).symm k) = lW i k := funext fun a => Fin.ext (by
    match a with
    | ⟨0, _⟩ => exact whole_lhs_0 _ _
    | ⟨1, _⟩ => exact (whole_lhs_1 _ _).trans hk)
  have er : Cert.ReferenceIdeal.dot_S50000x256_S256x512_S50000x512_1_0_0_1_n_n.rhsIdx i ((ValueIdx.contrEquiv1 Cert.ReferenceIdeal.dot_S50000x256_S256x512_S50000x512_1_0_0_1_n_n 256 rfl rfl).symm k) = rW i k := funext fun a => Fin.ext (by
    match a with
    | ⟨0, _⟩ => exact (whole_rhs_0 _ _).trans hk
    | ⟨1, _⟩ => exact whole_rhs_1 _ _)
  rw [el, er]

/-- Entry `j` of what one grid point stores is the sum over `k` of tile(j 0, k) · right(k, j 1): the two changes of
    float format are the identity, and the accumulator is zero. -/
theorem tile_apply (x0 : Vec Ideal S2000x256 .f32) (x1 : Vec Ideal S256x512 .f32) (j : S2000x512.Idx) :
    k1_pay1 (F := Ideal) x0 x1 j = ∑ k : Fin 256, x0 (lB j k) * x1 (rB j k) := by
  show FloatOps.matmul (F := Ideal) dot_S2000x256_S256x512_S2000x512_1_0_0_1_n_n none (truncf (F := Ideal) .bf16 (shapeCast S2000x256 x0 shapeCasts_S2000x256_S2000x256) bitsLt_bf16_f32) (truncf (F := Ideal) .bf16 x1 bitsLt_bf16_f32) (constant (F := Ideal) S2000x512 .f32 0x00000000#32) j = _
  rw [shapeCast_self]
  rw [Ideal.matmul_constant_zero_apply, ← Equiv.sum_comp (ValueIdx.contrEquiv1 dot_S2000x256_S256x512_S2000x512_1_0_0_1_n_n 256 rfl rfl).symm]
  refine Finset.sum_congr rfl fun k _ => ?_
  have hk := ValueIdx.contrEquiv1_symm_val dot_S2000x256_S256x512_S2000x512_1_0_0_1_n_n 256 rfl rfl k
  have el : dot_S2000x256_S256x512_S2000x512_1_0_0_1_n_n.lhsIdx j ((ValueIdx.contrEquiv1 dot_S2000x256_S256x512_S2000x512_1_0_0_1_n_n 256 rfl rfl).symm k) = lB j k := funext fun a => Fin.ext (by
    match a with
    | ⟨0, _⟩ => exact tile_lhs_0 _ _
    | ⟨1, _⟩ => exact (tile_lhs_1 _ _).trans hk)
  have er : dot_S2000x256_S256x512_S2000x512_1_0_0_1_n_n.rhsIdx j ((ValueIdx.contrEquiv1 dot_S2000x256_S256x512_S2000x512_1_0_0_1_n_n 256 rfl rfl).symm k) = rB j k := funext fun a => Fin.ext (by
    match a with
    | ⟨0, _⟩ => exact (tile_rhs_0 _ _).trans hk
    | ⟨1, _⟩ => exact tile_rhs_1 _ _)
  rw [el, er]
  rfl

/-- A tile's product is the whole product read at the tile's place: when the tile's rows are the left array's rows
    at `e0`, the loaded right operand is the right array at `e1`, and the two placements send the operand positions of
    tile entry `j` to those of array entry `i`. -/
theorem tile_eq_product (x : FVec Ideal S50000x256 .f32) (y : FVec Ideal S256x512 .f32) (x0 : Vec Ideal S2000x256 .f32) (x1 : Vec Ideal S256x512 .f32)
    (j : S2000x512.Idx) (i : S50000x512.Idx) (e0 : S2000x256.Idx → S50000x256.Idx) (e1 : S256x512.Idx → S256x512.Idx)
    (h0 : ∀ p, x0 p = x (e0 p)) (h1 : ∀ p, x1 p = y (e1 p))
    (hl : ∀ k : Fin 256, e0 (lB j k) = lW i k) (hr : ∀ k : Fin 256, e1 (rB j k) = rW i k) :
    k1_pay1 (F := Ideal) x0 x1 j = product x y i := by
  rw [tile_apply, product_apply]
  exact Finset.sum_congr rfl fun k _ => by rw [h0, h1, hl k, hr k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's tiles move down the rows with the point,
    the right operand stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is tile `t` of the whole product of the two input arrays as the region finds them. -/
theorem flushed_eq (c : Dev nD) (t : Fin cfg1.N) :
    (dat1 V c).flushed 2 t = ((cfg1.win 2).blk t).view.read (Elt Ideal) (product (V c main_v47) (V c main_arg4)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x512) hz]
  obtain ⟨e0, e1, e2, e3, e4, e5⟩ := idx_facts t
  funext j
  refine tile_eq_product (V c main_v47) (V c main_arg4) _ _ j (((cfg1.win 2).blk t).view.emb j)
    (fun p => ((cfg1.win 0).blk t).view.emb p) (fun p => ((cfg1.win 1).blk t).view.emb p) (fun _ => rfl) (fun _ => rfl) ?_ ?_
  · intro k
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · intro k
    funext a; apply Fin.ext
    match a with
    | ⟨0, _⟩ => show win1_1.index t (0 : Fin 2) * 256 + 1 * k.val = k.val; omega
    | ⟨1, _⟩ => show win1_1.index t (1 : Fin 2) * 512 + 1 * (j 1).val = win1_2.index t (1 : Fin 2) * 512 + 1 * (j 1).val; omega

/-- An index of the output array is in point `t`'s tile iff each coordinate is in the tile's range on its axis. -/
theorem mem_blk (t : Fin cfg1.N) (i : S50000x512.Idx) :
    i ∈ ((cfg1.win 2).blk t).view.set ↔ ∀ a : Fin 2, win1_2.index t a * S2000x512.size a ≤ (i a).val ∧ (i a).val < win1_2.index t a * S2000x512.size a + S2000x512.size a := by
  show i ∈ ((View.whole main_v48).slice (win1_2.rect t)).set ↔ _
  rw [View.set_slice_whole, Rect.mem_set_unit]
  exact Iff.rfl

/-- Row `r` lies in the tile of point `r / 2000`: the 25 tiles cover the array. -/
theorem cover (i : S50000x512.Idx) : ∃ t : Fin cfg1.N, (cfg1.win 2).flush t = true ∧ i ∈ ((cfg1.win 2).blk t).view.set := by
  have hi0 : (i 0).val < 50000 := (i 0).isLt
  have hi1 : (i 1).val < 512 := (i 1).isLt
  have hN : grid1.N = 25 := N_1
  have hlt : (i 0).val / 2000 < cfg1.N := by show _ < grid1.N; omega
  obtain ⟨e0, e1, e2, e3, e4, e5⟩ := idx_facts ⟨(i 0).val / 2000, hlt⟩
  refine ⟨⟨(i 0).val / 2000, hlt⟩, flush1_2 _, ?_⟩
  rw [mem_blk]
  intro a
  match a with
  | ⟨0, _⟩ =>
    show win1_2.index ⟨(i 0).val / 2000, hlt⟩ (0 : Fin 2) * 2000 ≤ (i 0).val ∧ (i 0).val < win1_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, hlt⟩ (1 : Fin 2) * 512 ≤ (i 1).val ∧ (i 1).val < win1_2.index ⟨(i 0).val / 2000, hlt⟩ (1 : Fin 2) * 512 + 512
    omega

/-- THE OUTPUT ARRAY after the region: the whole product of the input arrays as the region found them. -/
theorem region_value (c : Dev nD) : (dat1 V c).arrAt 2 cfg1.N = product (V c main_v47) (V c main_arg4) :=
  (dat1 V c).arrAt_eq_of_cover 2 _ (fun t _ => flushed_eq V c t) cover

/-! ## The region as one host operation on the buffer contents -/

/-- The host matrix product from the left and right buffers into the output buffer. -/
def productOp : HloOp τ sig (Elt Ideal) :=
  StableHlo.binary main_v47 main_arg4 main_v48 ((fun l r => product l r) : (⟨S50000x256, .f32⟩ : BufTy).Contents (Elt Ideal) → (⟨S256x512, .f32⟩ : BufTy).Contents (Elt Ideal) → (⟨S50000x512, .f32⟩ : BufTy).Contents (Elt Ideal))

/-- What the region leaves of a core's buffer contents — its three arrays at what the pipeline leaves, every other
    buffer as entered — is what the one host product leaves: the output buffer at the product of the two inputs,
    everything else, the two inputs included, as it was. -/
theorem exit_eq (Wc : Dev nD → Valuation τ sig (Elt Ideal)) (c : Dev nD) :
    Pipeline.withArrays spec1 c (Wc c) (fun w => (dat1 (fun c b => Wc c (Proc.devRef .tc b)) c).arrAt w cfg1.N)
      = productOp.result (Wc c) := by
  funext b
  by_cases hb : b = Proc.devRef .tc main_v48
  · subst hb
    unfold productOp
    rw [StableHlo.binary_result]
    exact (Pipeline.withArrays_arr spec1 launch1.win.arr_inj c _ _ 2).trans (region_value _ c)
  · have hnw : b ∉ (productOp).writes := by
      unfold productOp
      rw [StableHlo.binary_writes, Finset.mem_singleton]
      exact hb
    rw [HloOp.result_of_not_mem _ _ hnw]
    by_cases h0 : b = Proc.devRef .tc main_v47
    · subst h0
      exact (Pipeline.withArrays_arr spec1 launch1.win.arr_inj c _ _ 0).trans (((dat1 _ c).arrAt_in 0 rfl _).trans (A_eq1 _ c 0))
    · by_cases h1 : b = Proc.devRef .tc main_arg4
      · subst h1
        exact (Pipeline.withArrays_arr spec1 launch1.win.arr_inj c _ _ 1).trans (((dat1 _ c).arrAt_in 1 rfl _).trans (A_eq1 _ c 1))
      · unfold Pipeline.withArrays
        refine dif_neg ?_
        rintro ⟨w, e⟩
        match w with
        | ⟨0, _⟩ => exact h0 e.symm
        | ⟨1, _⟩ => exact h1 e.symm
        | ⟨2, _⟩ => exact hb e.symm

end Cert.KernelIdeal.Layer1

end
-- ==== Proof.Layer2.lean ====
/-
  Layer 3's dense transform. The kernel computes a [50000, 512] × [512, 256] product in 25 row tiles: grid point t loads
  rows 2000·t … 2000·t + 1999 of the left operand and the whole right operand, and stores the tile's [2000, 256] product
  (the left tile's cast to its own shape and the change of float format on the operands are the identity on the
  extended reals, and the product is accumulated into zero). Entry (r, n) of a tile's product is the sum over k of left(2000·t + r, k) · right(k, n), which is entry
  (2000·t + r, n) of the whole product; the 25 tiles cover the 50000 rows. So after the region the output array holds
  the whole product of the two input arrays as the region found them, the input arrays are unchanged, and on the
  buffer contents the region acts exactly as the one host matrix product writing the output buffer.
-/
import proofs.«114422_j45749991637433_1_alg».proof.Proof.Gen.KernelIdeal.Frame
import proofs.«114422_j45749991637433_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Layer2

open Idealize.ShloMosaic Idealize.ShloMosaic.TcCoe Idealize.SL.Sem
open Idealize.ShloMosaic.Pipeline (Dat Cfg Window)
open Cert.KernelIdeal Cert.KernelIdeal.Gen

/-! ## The two products at an index, as sums over the contracted axis -/

/-- The left operand's position for entry `i` of the whole product and contracted position `k`: row `i 0`, column `k`. -/
abbrev lW (i : S50000x256.Idx) (k : Fin 512) : S50000x512.Idx := fun a => match a with
  | ⟨0, _⟩ => ⟨(i 0).val, (i 0).isLt⟩
  | ⟨1, _⟩ => ⟨k.val, k.isLt⟩
/-- The right operand's position for entry `i` of the whole product: row `k`, column `i 1`. -/
abbrev rW (i : S50000x256.Idx) (k : Fin 512) : S512x256.Idx := fun a => match a with
  | ⟨0, _⟩ => ⟨k.val, k.isLt⟩
  | ⟨1, _⟩ => ⟨(i 1).val, (i 1).isLt⟩
/-- The same two positions inside one tile, for entry `j` of the tile's product. -/
abbrev lB (j : S2000x256.Idx) (k : Fin 512) : S2000x512.Idx := fun a => match a with
  | ⟨0, _⟩ => ⟨(j 0).val, (j 0).isLt⟩
  | ⟨1, _⟩ => ⟨k.val, k.isLt⟩
abbrev rB (j : S2000x256.Idx) (k : Fin 512) : S512x256.Idx := fun a => match a with
  | ⟨0, _⟩ => ⟨k.val, k.isLt⟩
  | ⟨1, _⟩ => ⟨(j 1).val, (j 1).isLt⟩

theorem tile_lhs_0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem tile_lhs_1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem tile_rhs_0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem tile_rhs_1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem whole_lhs_0 (i : S50000x256.Idx) (q : Cert.ReferenceIdeal.dot_S50000x512_S512x256_S50000x256_1_0_0_1_n_n.contr.Idx) : (Cert.ReferenceIdeal.dot_S50000x512_S512x256_S50000x256_1_0_0_1_n_n.lhsIdx i q 0).val = (i 0).val := by
  unfold DotDims.lhsIdx
  rw [dif_neg (show ¬(0 : Fin S50000x512.rank) ∈ Cert.ReferenceIdeal.dot_S50000x512_S512x256_S50000x256_1_0_0_1_n_n.lhsBatch by decide), dif_pos (show (0 : Fin S50000x512.rank) ∈ Cert.ReferenceIdeal.dot_S50000x512_S512x256_S50000x256_1_0_0_1_n_n.lhsNonContracting by decide)]
  rfl
theorem whole_lhs_1 (i : S50000x256.Idx) (q : Cert.ReferenceIdeal.dot_S50000x512_S512x256_S50000x256_1_0_0_1_n_n.contr.Idx) : (Cert.ReferenceIdeal.dot_S50000x512_S512x256_S50000x256_1_0_0_1_n_n.lhsIdx i q 1).val = (q ⟨0, by decide⟩).val :=
  Cert.ReferenceIdeal.dot_S50000x512_S512x256_S50000x256_1_0_0_1_n_n.lhsIdx_val_of_single rfl i q
theorem whole_rhs_0 (i : S50000x256.Idx) (q : Cert.ReferenceIdeal.dot_S50000x512_S512x256_S50000x256_1_0_0_1_n_n.contr.Idx) : (Cert.ReferenceIdeal.dot_S50000x512_S512x256_S50000x256_1_0_0_1_n_n.rhsIdx i q 0).val = (q ⟨0, by decide⟩).val :=
  Cert.ReferenceIdeal.dot_S50000x512_S512x256_S50000x256_1_0_0_1_n_n.rhsIdx_val_of_single rfl i q
theorem whole_rhs_1 (i : S50000x256.Idx) (q : Cert.ReferenceIdeal.dot_S50000x512_S512x256_S50000x256_1_0_0_1_n_n.contr.Idx) : (Cert.ReferenceIdeal.dot_S50000x512_S512x256_S50000x256_1_0_0_1_n_n.rhsIdx i q 1).val = (i 1).val := by
  unfold DotDims.rhsIdx
  rw [dif_neg (show ¬(1 : Fin S512x256.rank) ∈ Cert.ReferenceIdeal.dot_S50000x512_S512x256_S50000x256_1_0_0_1_n_n.rhsBatch by decide), dif_pos (show (1 : Fin S512x256.rank) ∈ Cert.ReferenceIdeal.dot_S50000x512_S512x256_S50000x256_1_0_0_1_n_n.rhsNonContracting by decide)]
  rfl

/-- The whole product of a left and a right array. -/
def product (x : FVec Ideal S50000x512 .f32) (y : FVec Ideal S512x256 .f32) : FVec Ideal S50000x256 .f32 :=
  Host.dotGeneral (F := Ideal) Cert.ReferenceIdeal.dot_S50000x512_S512x256_S50000x256_1_0_0_1_n_n none x y

/-- Entry `i` of the whole product is the sum over `k` of left(i 0, k) · right(k, i 1). -/
theorem product_apply (x : FVec Ideal S50000x512 .f32) (y : FVec Ideal S512x256 .f32) (i : S50000x256.Idx) :
    product x y i = ∑ k : Fin 512, x (lW i k) * y (rW i k) := by
  unfold product
  simp only [Host.dotGeneral]
  rw [Ideal.dotGeneral_apply, ← Equiv.sum_comp (ValueIdx.contrEquiv1 Cert.ReferenceIdeal.dot_S50000x512_S512x256_S50000x256_1_0_0_1_n_n 512 rfl rfl).symm]
  refine Finset.sum_congr rfl fun k _ => ?_
  have hk := ValueIdx.contrEquiv1_symm_val Cert.ReferenceIdeal.dot_S50000x512_S512x256_S50000x256_1_0_0_1_n_n 512 rfl rfl k
  have el : Cert.ReferenceIdeal.dot_S50000x512_S512x256_S50000x256_1_0_0_1_n_n.lhsIdx i ((ValueIdx.contrEquiv1 Cert.ReferenceIdeal.dot_S50000x512_S512x256_S50000x256_1_0_0_1_n_n 512 rfl rfl).symm k) = lW i k := funext fun a => Fin.ext (by
    match a with
    | ⟨0, _⟩ => exact whole_lhs_0 _ _
    | ⟨1, _⟩ => exact (whole_lhs_1 _ _).trans hk)
  have er : Cert.ReferenceIdeal.dot_S50000x512_S512x256_S50000x256_1_0_0_1_n_n.rhsIdx i ((ValueIdx.contrEquiv1 Cert.ReferenceIdeal.dot_S50000x512_S512x256_S50000x256_1_0_0_1_n_n 512 rfl rfl).symm k) = rW i k := funext fun a => Fin.ext (by
    match a with
    | ⟨0, _⟩ => exact (whole_rhs_0 _ _).trans hk
    | ⟨1, _⟩ => exact whole_rhs_1 _ _)
  rw [el, er]

/-- Entry `j` of what one grid point stores is the sum over `k` of tile(j 0, k) · right(k, j 1): the two changes of
    float format are the identity, and the accumulator is zero. -/
theorem tile_apply (x0 : Vec Ideal S2000x512 .f32) (x1 : Vec Ideal S512x256 .f32) (j : S2000x256.Idx) :
    k2_pay1 (F := Ideal) x0 x1 j = ∑ k : Fin 512, x0 (lB j k) * x1 (rB j k) := by
  show FloatOps.matmul (F := Ideal) dot_S2000x512_S512x256_S2000x256_1_0_0_1_n_n none (truncf (F := Ideal) .bf16 (shapeCast S2000x512 x0 shapeCasts_S2000x512_S2000x512) bitsLt_bf16_f32) (truncf (F := Ideal) .bf16 x1 bitsLt_bf16_f32) (constant (F := Ideal) S2000x256 .f32 0x00000000#32) j = _
  rw [shapeCast_self]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = lB j k := funext fun a => Fin.ext (by
    match a with
    | ⟨0, _⟩ => exact tile_lhs_0 _ _
    | ⟨1, _⟩ => exact (tile_lhs_1 _ _).trans hk)
  have er : dot_S2000x512_S512x256_S2000x256_1_0_0_1_n_n.rhsIdx j ((ValueIdx.contrEquiv1 dot_S2000x512_S512x256_S2000x256_1_0_0_1_n_n 512 rfl rfl).symm k) = rB j k := funext fun a => Fin.ext (by
    match a with
    | ⟨0, _⟩ => exact (tile_rhs_0 _ _).trans hk
    | ⟨1, _⟩ => exact tile_rhs_1 _ _)
  rw [el, er]
  rfl

/-- A tile's product is the whole product read at the tile's place: when the tile's rows are the left array's rows
    at `e0`, the loaded right operand is the right array at `e1`, and the two placements send the operand positions of
    tile entry `j` to those of array entry `i`. -/
theorem tile_eq_product (x : FVec Ideal S50000x512 .f32) (y : FVec Ideal S512x256 .f32) (x0 : Vec Ideal S2000x512 .f32) (x1 : Vec Ideal S512x256 .f32)
    (j : S2000x256.Idx) (i : S50000x256.Idx) (e0 : S2000x512.Idx → S50000x512.Idx) (e1 : S512x256.Idx → S512x256.Idx)
    (h0 : ∀ p, x0 p = x (e0 p)) (h1 : ∀ p, x1 p = y (e1 p))
    (hl : ∀ k : Fin 512, e0 (lB j k) = lW i k) (hr : ∀ k : Fin 512, e1 (rB j k) = rW i k) :
    k2_pay1 (F := Ideal) x0 x1 j = product x y i := by
  rw [tile_apply, product_apply]
  exact Finset.sum_congr rfl fun k _ => by rw [h0, h1, hl k, hr k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's tiles move down the rows with the point,
    the right operand stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- WHAT POINT `t` WRITES BACK is tile `t` of the whole product of the two input arrays as the region finds them. -/
theorem flushed_eq (c : Dev nD) (t : Fin cfg2.N) :
    (dat2 V c).flushed 2 t = ((cfg2.win 2).blk t).view.read (Elt Ideal) (product (V c main_v65) (V c main_arg6)) := by
  show (cfg2.win 2).cut (grid2.coords t) ((dat2 V c).after 2 t) = _
  rw [after2_2]
  unfold out2_2
  rw [View.canon_unit_zero hz]
  simp only [View.ld_unit_zero (S := S2000x512) hz, View.ld_unit_zero (S := S512x256) hz]
  obtain ⟨e0, e1, e2, e3, e4, e5⟩ := idx_facts t
  funext j
  refine tile_eq_product (V c main_v65) (V c main_arg6) _ _ j (((cfg2.win 2).blk t).view.emb j)
    (fun p => ((cfg2.win 0).blk t).view.emb p) (fun p => ((cfg2.win 1).blk t).view.emb p) (fun _ => rfl) (fun _ => rfl) ?_ ?_
  · intro k
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 512 + 1 * k.val = k.val; omega
  · intro k
    funext a; apply Fin.ext
    match a with
    | ⟨0, _⟩ => show win2_1.index t (0 : Fin 2) * 512 + 1 * k.val = k.val; omega
    | ⟨1, _⟩ => show win2_1.index t (1 : Fin 2) * 256 + 1 * (j 1).val = win2_2.index t (1 : Fin 2) * 256 + 1 * (j 1).val; omega

/-- An index of the output array is in point `t`'s tile iff each coordinate is in the tile's range on its axis. -/
theorem mem_blk (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v66).slice (win2_2.rect t)).set ↔ _
  rw [View.set_slice_whole, Rect.mem_set_unit]
  exact Iff.rfl

/-- Row `r` lies in the tile of point `r / 2000`: the 25 tiles cover the array. -/
theorem cover (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  have hN : grid2.N = 25 := N_2
  have hlt : (i 0).val / 2000 < cfg2.N := by show _ < grid2.N; omega
  obtain ⟨e0, e1, e2, e3, e4, e5⟩ := idx_facts ⟨(i 0).val / 2000, hlt⟩
  refine ⟨⟨(i 0).val / 2000, hlt⟩, flush2_2 _, ?_⟩
  rw [mem_blk]
  intro a
  match a with
  | ⟨0, _⟩ =>
    show win2_2.index ⟨(i 0).val / 2000, hlt⟩ (0 : Fin 2) * 2000 ≤ (i 0).val ∧ (i 0).val < win2_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win2_2.index ⟨(i 0).val / 2000, hlt⟩ (1 : Fin 2) * 256 ≤ (i 1).val ∧ (i 1).val < win2_2.index ⟨(i 0).val / 2000, hlt⟩ (1 : Fin 2) * 256 + 256
    omega

/-- THE OUTPUT ARRAY after the region: the whole product of the input arrays as the region found them. -/
theorem region_value (c : Dev nD) : (dat2 V c).arrAt 2 cfg2.N = product (V c main_v65) (V c main_arg6) :=
  (dat2 V c).arrAt_eq_of_cover 2 _ (fun t _ => flushed_eq V c t) cover

/-! ## The region as one host operation on the buffer contents -/

/-- The host matrix product from the left and right buffers into the output buffer. -/
def productOp : HloOp τ sig (Elt Ideal) :=
  StableHlo.binary main_v65 main_arg6 main_v66 ((fun l r => product l r) : (⟨S50000x512, .f32⟩ : BufTy).Contents (Elt Ideal) → (⟨S512x256, .f32⟩ : BufTy).Contents (Elt Ideal) → (⟨S50000x256, .f32⟩ : BufTy).Contents (Elt Ideal))

/-- What the region leaves of a core's buffer contents — its three arrays at what the pipeline leaves, every other
    buffer as entered — is what the one host product leaves: the output buffer at the product of the two inputs,
    everything else, the two inputs included, as it was. -/
theorem exit_eq (Wc : Dev nD → Valuation τ sig (Elt Ideal)) (c : Dev nD) :
    Pipeline.withArrays spec2 c (Wc c) (fun w => (dat2 (fun c b => Wc c (Proc.devRef .tc b)) c).arrAt w cfg2.N)
      = productOp.result (Wc c) := by
  funext b
  by_cases hb : b = Proc.devRef .tc main_v66
  · subst hb
    unfold productOp
    rw [StableHlo.binary_result]
    exact (Pipeline.withArrays_arr spec2 launch2.win.arr_inj c _ _ 2).trans (region_value _ c)
  · have hnw : b ∉ (productOp).writes := by
      unfold productOp
      rw [StableHlo.binary_writes, Finset.mem_singleton]
      exact hb
    rw [HloOp.result_of_not_mem _ _ hnw]
    by_cases h0 : b = Proc.devRef .tc main_v65
    · subst h0
      exact (Pipeline.withArrays_arr spec2 launch2.win.arr_inj c _ _ 0).trans (((dat2 _ c).arrAt_in 0 rfl _).trans (A_eq2 _ c 0))
    · by_cases h1 : b = Proc.devRef .tc main_arg6
      · subst h1
        exact (Pipeline.withArrays_arr spec2 launch2.win.arr_inj c _ _ 1).trans (((dat2 _ c).arrAt_in 1 rfl _).trans (A_eq2 _ c 1))
      · unfold Pipeline.withArrays
        refine dif_neg ?_
        rintro ⟨w, e⟩
        match w with
        | ⟨0, _⟩ => exact h0 e.symm
        | ⟨1, _⟩ => exact h1 e.symm
        | ⟨2, _⟩ => exact hb e.symm

end Cert.KernelIdeal.Layer2

end
-- ==== Proof.Layer3.lean ====
/-
  Layer 4's dense transform. The kernel computes a [50000, 256] × [256, 64] product in 25 row tiles: grid point t loads
  rows 2000·t … 2000·t + 1999 of the left operand and the whole right operand, and stores the tile's [2000, 64] product
  (the left tile's cast to its own shape and the change of float format on the operands are the identity on the
  extended reals, and the product is accumulated into zero). Entry (r, n) of a tile's product is the sum over k of left(2000·t + r, k) · right(k, n), which is entry
  (2000·t + r, n) of the whole product; the 25 tiles cover the 50000 rows. So after the region the output array holds
  the whole product of the two input arrays as the region found them, the input arrays are unchanged, and on the
  buffer contents the region acts exactly as the one host matrix product writing the output buffer.
-/
import proofs.«114422_j45749991637433_1_alg».proof.Proof.Gen.KernelIdeal.Frame
import proofs.«114422_j45749991637433_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Layer3

open Idealize.ShloMosaic Idealize.ShloMosaic.TcCoe Idealize.SL.Sem
open Idealize.ShloMosaic.Pipeline (Dat Cfg Window)
open Cert.KernelIdeal Cert.KernelIdeal.Gen

/-! ## The two products at an index, as sums over the contracted axis -/

/-- The left operand's position for entry `i` of the whole product and contracted position `k`: row `i 0`, column `k`. -/
abbrev lW (i : S50000x64.Idx) (k : Fin 256) : S50000x256.Idx := fun a => match a with
  | ⟨0, _⟩ => ⟨(i 0).val, (i 0).isLt⟩
  | ⟨1, _⟩ => ⟨k.val, k.isLt⟩
/-- The right operand's position for entry `i` of the whole product: row `k`, column `i 1`. -/
abbrev rW (i : S50000x64.Idx) (k : Fin 256) : S256x64.Idx := fun a => match a with
  | ⟨0, _⟩ => ⟨k.val, k.isLt⟩
  | ⟨1, _⟩ => ⟨(i 1).val, (i 1).isLt⟩
/-- The same two positions inside one tile, for entry `j` of the tile's product. -/
abbrev lB (j : S2000x64.Idx) (k : Fin 256) : S2000x256.Idx := fun a => match a with
  | ⟨0, _⟩ => ⟨(j 0).val, (j 0).isLt⟩
  | ⟨1, _⟩ => ⟨k.val, k.isLt⟩
abbrev rB (j : S2000x64.Idx) (k : Fin 256) : S256x64.Idx := fun a => match a with
  | ⟨0, _⟩ => ⟨k.val, k.isLt⟩
  | ⟨1, _⟩ => ⟨(j 1).val, (j 1).isLt⟩

theorem tile_lhs_0 (i : S2000x64.Idx) (q : dot_S2000x256_S256x64_S2000x64_1_0_0_1_n_n.contr.Idx) : (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem tile_lhs_1 (i : S2000x64.Idx) (q : dot_S2000x256_S256x64_S2000x64_1_0_0_1_n_n.contr.Idx) : (dot_S2000x256_S256x64_S2000x64_1_0_0_1_n_n.lhsIdx i q 1).val = (q ⟨0, by decide⟩).val :=
  dot_S2000x256_S256x64_S2000x64_1_0_0_1_n_n.lhsIdx_val_of_single rfl i q
theorem tile_rhs_0 (i : S2000x64.Idx) (q : dot_S2000x256_S256x64_S2000x64_1_0_0_1_n_n.contr.Idx) : (dot_S2000x256_S256x64_S2000x64_1_0_0_1_n_n.rhsIdx i q 0).val = (q ⟨0, by decide⟩).val :=
  dot_S2000x256_S256x64_S2000x64_1_0_0_1_n_n.rhsIdx_val_of_single rfl i q
theorem tile_rhs_1 (i : S2000x64.Idx) (q : dot_S2000x256_S256x64_S2000x64_1_0_0_1_n_n.contr.Idx) : (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

theorem whole_lhs_0 (i : S50000x64.Idx) (q : Cert.ReferenceIdeal.dot_S50000x256_S256x64_S50000x64_1_0_0_1_n_n.contr.Idx) : (Cert.ReferenceIdeal.dot_S50000x256_S256x64_S50000x64_1_0_0_1_n_n.lhsIdx i q 0).val = (i 0).val := by
  unfold DotDims.lhsIdx
  rw [dif_neg (show ¬(0 : Fin S50000x256.rank) ∈ Cert.ReferenceIdeal.dot_S50000x256_S256x64_S50000x64_1_0_0_1_n_n.lhsBatch by decide), dif_pos (show (0 : Fin S50000x256.rank) ∈ Cert.ReferenceIdeal.dot_S50000x256_S256x64_S50000x64_1_0_0_1_n_n.lhsNonContracting by decide)]
  rfl
theorem whole_lhs_1 (i : S50000x64.Idx) (q : Cert.ReferenceIdeal.dot_S50000x256_S256x64_S50000x64_1_0_0_1_n_n.contr.Idx) : (Cert.ReferenceIdeal.dot_S50000x256_S256x64_S50000x64_1_0_0_1_n_n.lhsIdx i q 1).val = (q ⟨0, by decide⟩).val :=
  Cert.ReferenceIdeal.dot_S50000x256_S256x64_S50000x64_1_0_0_1_n_n.lhsIdx_val_of_single rfl i q
theorem whole_rhs_0 (i : S50000x64.Idx) (q : Cert.ReferenceIdeal.dot_S50000x256_S256x64_S50000x64_1_0_0_1_n_n.contr.Idx) : (Cert.ReferenceIdeal.dot_S50000x256_S256x64_S50000x64_1_0_0_1_n_n.rhsIdx i q 0).val = (q ⟨0, by decide⟩).val :=
  Cert.ReferenceIdeal.dot_S50000x256_S256x64_S50000x64_1_0_0_1_n_n.rhsIdx_val_of_single rfl i q
theorem whole_rhs_1 (i : S50000x64.Idx) (q : Cert.ReferenceIdeal.dot_S50000x256_S256x64_S50000x64_1_0_0_1_n_n.contr.Idx) : (Cert.ReferenceIdeal.dot_S50000x256_S256x64_S50000x64_1_0_0_1_n_n.rhsIdx i q 1).val = (i 1).val := by
  unfold DotDims.rhsIdx
  rw [dif_neg (show ¬(1 : Fin S256x64.rank) ∈ Cert.ReferenceIdeal.dot_S50000x256_S256x64_S50000x64_1_0_0_1_n_n.rhsBatch by decide), dif_pos (show (1 : Fin S256x64.rank) ∈ Cert.ReferenceIdeal.dot_S50000x256_S256x64_S50000x64_1_0_0_1_n_n.rhsNonContracting by decide)]
  rfl

/-- The whole product of a left and a right array. -/
def product (x : FVec Ideal S50000x256 .f32) (y : FVec Ideal S256x64 .f32) : FVec Ideal S50000x64 .f32 :=
  Host.dotGeneral (F := Ideal) Cert.ReferenceIdeal.dot_S50000x256_S256x64_S50000x64_1_0_0_1_n_n none x y

/-- Entry `i` of the whole product is the sum over `k` of left(i 0, k) · right(k, i 1). -/
theorem product_apply (x : FVec Ideal S50000x256 .f32) (y : FVec Ideal S256x64 .f32) (i : S50000x64.Idx) :
    product x y i = ∑ k : Fin 256, x (lW i k) * y (rW i k) := by
  unfold product
  simp only [Host.dotGeneral]
  rw [Ideal.dotGeneral_apply, ← Equiv.sum_comp (ValueIdx.contrEquiv1 Cert.ReferenceIdeal.dot_S50000x256_S256x64_S50000x64_1_0_0_1_n_n 256 rfl rfl).symm]
  refine Finset.sum_congr rfl fun k _ => ?_
  have hk := ValueIdx.contrEquiv1_symm_val Cert.ReferenceIdeal.dot_S50000x256_S256x64_S50000x64_1_0_0_1_n_n 256 rfl rfl k
  have el : Cert.ReferenceIdeal.dot_S50000x256_S256x64_S50000x64_1_0_0_1_n_n.lhsIdx i ((ValueIdx.contrEquiv1 Cert.ReferenceIdeal.dot_S50000x256_S256x64_S50000x64_1_0_0_1_n_n 256 rfl rfl).symm k) = lW i k := funext fun a => Fin.ext (by
    match a with
    | ⟨0, _⟩ => exact whole_lhs_0 _ _
    | ⟨1, _⟩ => exact (whole_lhs_1 _ _).trans hk)
  have er : Cert.ReferenceIdeal.dot_S50000x256_S256x64_S50000x64_1_0_0_1_n_n.rhsIdx i ((ValueIdx.contrEquiv1 Cert.ReferenceIdeal.dot_S50000x256_S256x64_S50000x64_1_0_0_1_n_n 256 rfl rfl).symm k) = rW i k := funext fun a => Fin.ext (by
    match a with
    | ⟨0, _⟩ => exact (whole_rhs_0 _ _).trans hk
    | ⟨1, _⟩ => exact whole_rhs_1 _ _)
  rw [el, er]

/-- Entry `j` of what one grid point stores is the sum over `k` of tile(j 0, k) · right(k, j 1): the two changes of
    float format are the identity, and the accumulator is zero. -/
theorem tile_apply (x0 : Vec Ideal S2000x256 .f32) (x1 : Vec Ideal S256x64 .f32) (j : S2000x64.Idx) :
    k3_pay1 (F := Ideal) x0 x1 j = ∑ k : Fin 256, x0 (lB j k) * x1 (rB j k) := by
  show FloatOps.matmul (F := Ideal) dot_S2000x256_S256x64_S2000x64_1_0_0_1_n_n none (truncf (F := Ideal) .bf16 (shapeCast S2000x256 x0 shapeCasts_S2000x256_S2000x256) bitsLt_bf16_f32) (truncf (F := Ideal) .bf16 x1 bitsLt_bf16_f32) (constant (F := Ideal) S2000x64 .f32 0x00000000#32) j = _
  rw [shapeCast_self]
  rw [Ideal.matmul_constant_zero_apply, ← Equiv.sum_comp (ValueIdx.contrEquiv1 dot_S2000x256_S256x64_S2000x64_1_0_0_1_n_n 256 rfl rfl).symm]
  refine Finset.sum_congr rfl fun k _ => ?_
  have hk := ValueIdx.contrEquiv1_symm_val dot_S2000x256_S256x64_S2000x64_1_0_0_1_n_n 256 rfl rfl k
  have el : dot_S2000x256_S256x64_S2000x64_1_0_0_1_n_n.lhsIdx j ((ValueIdx.contrEquiv1 dot_S2000x256_S256x64_S2000x64_1_0_0_1_n_n 256 rfl rfl).symm k) = lB j k := funext fun a => Fin.ext (by
    match a with
    | ⟨0, _⟩ => exact tile_lhs_0 _ _
    | ⟨1, _⟩ => exact (tile_lhs_1 _ _).trans hk)
  have er : dot_S2000x256_S256x64_S2000x64_1_0_0_1_n_n.rhsIdx j ((ValueIdx.contrEquiv1 dot_S2000x256_S256x64_S2000x64_1_0_0_1_n_n 256 rfl rfl).symm k) = rB j k := funext fun a => Fin.ext (by
    match a with
    | ⟨0, _⟩ => exact (tile_rhs_0 _ _).trans hk
    | ⟨1, _⟩ => exact tile_rhs_1 _ _)
  rw [el, er]
  rfl

/-- A tile's product is the whole product read at the tile's place: when the tile's rows are the left array's rows
    at `e0`, the loaded right operand is the right array at `e1`, and the two placements send the operand positions of
    tile entry `j` to those of array entry `i`. -/
theorem tile_eq_product (x : FVec Ideal S50000x256 .f32) (y : FVec Ideal S256x64 .f32) (x0 : Vec Ideal S2000x256 .f32) (x1 : Vec Ideal S256x64 .f32)
    (j : S2000x64.Idx) (i : S50000x64.Idx) (e0 : S2000x256.Idx → S50000x256.Idx) (e1 : S256x64.Idx → S256x64.Idx)
    (h0 : ∀ p, x0 p = x (e0 p)) (h1 : ∀ p, x1 p = y (e1 p))
    (hl : ∀ k : Fin 256, e0 (lB j k) = lW i k) (hr : ∀ k : Fin 256, e1 (rB j k) = rW i k) :
    k3_pay1 (F := Ideal) x0 x1 j = product x y i := by
  rw [tile_apply, product_apply]
  exact Finset.sum_congr rfl fun k _ => by rw [h0, h1, hl k, hr k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's tiles move down the rows with the point,
    the right operand stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- WHAT POINT `t` WRITES BACK is tile `t` of the whole product of the two input arrays as the region finds them. -/
theorem flushed_eq (c : Dev nD) (t : Fin cfg3.N) :
    (dat3 V c).flushed 2 t = ((cfg3.win 2).blk t).view.read (Elt Ideal) (product (V c main_v83) (V c main_arg8)) := by
  show (cfg3.win 2).cut (grid3.coords t) ((dat3 V c).after 2 t) = _
  rw [after3_2]
  unfold out3_2
  rw [View.canon_unit_zero hz]
  simp only [View.ld_unit_zero (S := S2000x256) hz, View.ld_unit_zero (S := S256x64) hz]
  obtain ⟨e0, e1, e2, e3, e4, e5⟩ := idx_facts t
  funext j
  refine tile_eq_product (V c main_v83) (V c main_arg8) _ _ j (((cfg3.win 2).blk t).view.emb j)
    (fun p => ((cfg3.win 0).blk t).view.emb p) (fun p => ((cfg3.win 1).blk t).view.emb p) (fun _ => rfl) (fun _ => rfl) ?_ ?_
  · intro k
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 256 + 1 * k.val = k.val; omega
  · intro k
    funext a; apply Fin.ext
    match a with
    | ⟨0, _⟩ => show win3_1.index t (0 : Fin 2) * 256 + 1 * k.val = k.val; omega
    | ⟨1, _⟩ => show win3_1.index t (1 : Fin 2) * 64 + 1 * (j 1).val = win3_2.index t (1 : Fin 2) * 64 + 1 * (j 1).val; omega

/-- An index of the output array is in point `t`'s tile iff each coordinate is in the tile's range on its axis. -/
theorem mem_blk (t : Fin cfg3.N) (i : S50000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v84).slice (win3_2.rect t)).set ↔ _
  rw [View.set_slice_whole, Rect.mem_set_unit]
  exact Iff.rfl

/-- Row `r` lies in the tile of point `r / 2000`: the 25 tiles cover the array. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 25 := N_3
  have hlt : (i 0).val / 2000 < cfg3.N := by show _ < grid3.N; omega
  obtain ⟨e0, e1, e2, e3, e4, e5⟩ := idx_facts ⟨(i 0).val / 2000, hlt⟩
  refine ⟨⟨(i 0).val / 2000, hlt⟩, flush3_2 _, ?_⟩
  rw [mem_blk]
  intro a
  match a with
  | ⟨0, _⟩ =>
    show win3_2.index ⟨(i 0).val / 2000, hlt⟩ (0 : Fin 2) * 2000 ≤ (i 0).val ∧ (i 0).val < win3_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, hlt⟩ (1 : Fin 2) * 64 ≤ (i 1).val ∧ (i 1).val < win3_2.index ⟨(i 0).val / 2000, hlt⟩ (1 : Fin 2) * 64 + 64
    omega

/-- THE OUTPUT ARRAY after the region: the whole product of the input arrays as the region found them. -/
theorem region_value (c : Dev nD) : (dat3 V c).arrAt 2 cfg3.N = product (V c main_v83) (V c main_arg8) :=
  (dat3 V c).arrAt_eq_of_cover 2 _ (fun t _ => flushed_eq V c t) cover

/-! ## The region as one host operation on the buffer contents -/

/-- The host matrix product from the left and right buffers into the output buffer. -/
def productOp : HloOp τ sig (Elt Ideal) :=
  StableHlo.binary main_v83 main_arg8 main_v84 ((fun l r => product l r) : (⟨S50000x256, .f32⟩ : BufTy).Contents (Elt Ideal) → (⟨S256x64, .f32⟩ : BufTy).Contents (Elt Ideal) → (⟨S50000x64, .f32⟩ : BufTy).Contents (Elt Ideal))

/-- What the region leaves of a core's buffer contents — its three arrays at what the pipeline leaves, every other
    buffer as entered — is what the one host product leaves: the output buffer at the product of the two inputs,
    everything else, the two inputs included, as it was. -/
theorem exit_eq (Wc : Dev nD → Valuation τ sig (Elt Ideal)) (c : Dev nD) :
    Pipeline.withArrays spec3 c (Wc c) (fun w => (dat3 (fun c b => Wc c (Proc.devRef .tc b)) c).arrAt w cfg3.N)
      = productOp.result (Wc c) := by
  funext b
  by_cases hb : b = Proc.devRef .tc main_v84
  · subst hb
    unfold productOp
    rw [StableHlo.binary_result]
    exact (Pipeline.withArrays_arr spec3 launch3.win.arr_inj c _ _ 2).trans (region_value _ c)
  · have hnw : b ∉ (productOp).writes := by
      unfold productOp
      rw [StableHlo.binary_writes, Finset.mem_singleton]
      exact hb
    rw [HloOp.result_of_not_mem _ _ hnw]
    by_cases h0 : b = Proc.devRef .tc main_v83
    · subst h0
      exact (Pipeline.withArrays_arr spec3 launch3.win.arr_inj c _ _ 0).trans (((dat3 _ c).arrAt_in 0 rfl _).trans (A_eq3 _ c 0))
    · by_cases h1 : b = Proc.devRef .tc main_arg8
      · subst h1
        exact (Pipeline.withArrays_arr spec3 launch3.win.arr_inj c _ _ 1).trans (((dat3 _ c).arrAt_in 1 rfl _).trans (A_eq3 _ c 1))
      · unfold Pipeline.withArrays
        refine dif_neg ?_
        rintro ⟨w, e⟩
        match w with
        | ⟨0, _⟩ => exact h0 e.symm
        | ⟨1, _⟩ => exact h1 e.symm
        | ⟨2, _⟩ => exact hb e.symm

end Cert.KernelIdeal.Layer3

end
-- ==== Proof.Layer4.lean ====
/-
  Layer 5's dense transform. The kernel computes a [50000, 64] × [64, 2] product in 25 row tiles: grid point t loads
  rows 2000·t … 2000·t + 1999 of the left operand and the whole right operand, and stores the tile's [2000, 2] product
  (the left tile's cast to its own shape and the change of float format on the operands are the identity on the
  extended reals, and the product is accumulated into zero). Entry (r, n) of a tile's product is the sum over k of left(2000·t + r, k) · right(k, n), which is entry
  (2000·t + r, n) of the whole product; the 25 tiles cover the 50000 rows. So after the region the output array holds
  the whole product of the two input arrays as the region found them, the input arrays are unchanged, and on the
  buffer contents the region acts exactly as the one host matrix product writing the output buffer.
-/
import proofs.«114422_j45749991637433_1_alg».proof.Proof.Gen.KernelIdeal.Frame
import proofs.«114422_j45749991637433_1_alg».proof.Proof.Gen.ReferenceIdeal
import Idealize.ShloMosaic.Lib.ValueIdx
import Idealize.ShloMosaic.Lib.Pipeline.Value
import Idealize.ShloMosaic.PureOps.Ideal.Laws
import Idealize.ShloMosaic.Lib.StableHlo.Run

set_option maxRecDepth 16384

noncomputable section

namespace Cert.KernelIdeal.Layer4

open Idealize.ShloMosaic Idealize.ShloMosaic.TcCoe Idealize.SL.Sem
open Idealize.ShloMosaic.Pipeline (Dat Cfg Window)
open Cert.KernelIdeal Cert.KernelIdeal.Gen

/-! ## The two products at an index, as sums over the contracted axis -/

/-- The left operand's position for entry `i` of the whole product and contracted position `k`: row `i 0`, column `k`. -/
abbrev lW (i : S50000x2.Idx) (k : Fin 64) : S50000x64.Idx := fun a => match a with
  | ⟨0, _⟩ => ⟨(i 0).val, (i 0).isLt⟩
  | ⟨1, _⟩ => ⟨k.val, k.isLt⟩
/-- The right operand's position for entry `i` of the whole product: row `k`, column `i 1`. -/
abbrev rW (i : S50000x2.Idx) (k : Fin 64) : S64x2.Idx := fun a => match a with
  | ⟨0, _⟩ => ⟨k.val, k.isLt⟩
  | ⟨1, _⟩ => ⟨(i 1).val, (i 1).isLt⟩
/-- The same two positions inside one tile, for entry `j` of the tile's product. -/
abbrev lB (j : S2000x2.Idx) (k : Fin 64) : S2000x64.Idx := fun a => match a with
  | ⟨0, _⟩ => ⟨(j 0).val, (j 0).isLt⟩
  | ⟨1, _⟩ => ⟨k.val, k.isLt⟩
abbrev rB (j : S2000x2.Idx) (k : Fin 64) : S64x2.Idx := fun a => match a with
  | ⟨0, _⟩ => ⟨k.val, k.isLt⟩
  | ⟨1, _⟩ => ⟨(j 1).val, (j 1).isLt⟩

theorem tile_lhs_0 (i : S2000x2.Idx) (q : dot_S2000x64_S64x2_S2000x2_1_0_0_1_n_n.contr.Idx) : (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch by decide), dif_pos (show (0 : Fin S2000x64.rank) ∈ dot_S2000x64_S64x2_S2000x2_1_0_0_1_n_n.lhsNonContracting by decide)]
  rfl
theorem tile_lhs_1 (i : S2000x2.Idx) (q : dot_S2000x64_S64x2_S2000x2_1_0_0_1_n_n.contr.Idx) : (dot_S2000x64_S64x2_S2000x2_1_0_0_1_n_n.lhsIdx i q 1).val = (q ⟨0, by decide⟩).val :=
  dot_S2000x64_S64x2_S2000x2_1_0_0_1_n_n.lhsIdx_val_of_single rfl i q
theorem tile_rhs_0 (i : S2000x2.Idx) (q : dot_S2000x64_S64x2_S2000x2_1_0_0_1_n_n.contr.Idx) : (dot_S2000x64_S64x2_S2000x2_1_0_0_1_n_n.rhsIdx i q 0).val = (q ⟨0, by decide⟩).val :=
  dot_S2000x64_S64x2_S2000x2_1_0_0_1_n_n.rhsIdx_val_of_single rfl i q
theorem tile_rhs_1 (i : S2000x2.Idx) (q : dot_S2000x64_S64x2_S2000x2_1_0_0_1_n_n.contr.Idx) : (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch by decide), dif_pos (show (1 : Fin S64x2.rank) ∈ dot_S2000x64_S64x2_S2000x2_1_0_0_1_n_n.rhsNonContracting by decide)]
  rfl

theorem whole_lhs_0 (i : S50000x2.Idx) (q : Cert.ReferenceIdeal.dot_S50000x64_S64x2_S50000x2_1_0_0_1_n_n.contr.Idx) : (Cert.ReferenceIdeal.dot_S50000x64_S64x2_S50000x2_1_0_0_1_n_n.lhsIdx i q 0).val = (i 0).val := by
  unfold DotDims.lhsIdx
  rw [dif_neg (show ¬(0 : Fin S50000x64.rank) ∈ Cert.ReferenceIdeal.dot_S50000x64_S64x2_S50000x2_1_0_0_1_n_n.lhsBatch by decide), dif_pos (show (0 : Fin S50000x64.rank) ∈ Cert.ReferenceIdeal.dot_S50000x64_S64x2_S50000x2_1_0_0_1_n_n.lhsNonContracting by decide)]
  rfl
theorem whole_lhs_1 (i : S50000x2.Idx) (q : Cert.ReferenceIdeal.dot_S50000x64_S64x2_S50000x2_1_0_0_1_n_n.contr.Idx) : (Cert.ReferenceIdeal.dot_S50000x64_S64x2_S50000x2_1_0_0_1_n_n.lhsIdx i q 1).val = (q ⟨0, by decide⟩).val :=
  Cert.ReferenceIdeal.dot_S50000x64_S64x2_S50000x2_1_0_0_1_n_n.lhsIdx_val_of_single rfl i q
theorem whole_rhs_0 (i : S50000x2.Idx) (q : Cert.ReferenceIdeal.dot_S50000x64_S64x2_S50000x2_1_0_0_1_n_n.contr.Idx) : (Cert.ReferenceIdeal.dot_S50000x64_S64x2_S50000x2_1_0_0_1_n_n.rhsIdx i q 0).val = (q ⟨0, by decide⟩).val :=
  Cert.ReferenceIdeal.dot_S50000x64_S64x2_S50000x2_1_0_0_1_n_n.rhsIdx_val_of_single rfl i q
theorem whole_rhs_1 (i : S50000x2.Idx) (q : Cert.ReferenceIdeal.dot_S50000x64_S64x2_S50000x2_1_0_0_1_n_n.contr.Idx) : (Cert.ReferenceIdeal.dot_S50000x64_S64x2_S50000x2_1_0_0_1_n_n.rhsIdx i q 1).val = (i 1).val := by
  unfold DotDims.rhsIdx
  rw [dif_neg (show ¬(1 : Fin S64x2.rank) ∈ Cert.ReferenceIdeal.dot_S50000x64_S64x2_S50000x2_1_0_0_1_n_n.rhsBatch by decide), dif_pos (show (1 : Fin S64x2.rank) ∈ Cert.ReferenceIdeal.dot_S50000x64_S64x2_S50000x2_1_0_0_1_n_n.rhsNonContracting by decide)]
  rfl

/-- The whole product of a left and a right array. -/
def product (x : FVec Ideal S50000x64 .f32) (y : FVec Ideal S64x2 .f32) : FVec Ideal S50000x2 .f32 :=
  Host.dotGeneral (F := Ideal) Cert.ReferenceIdeal.dot_S50000x64_S64x2_S50000x2_1_0_0_1_n_n none x y

/-- Entry `i` of the whole product is the sum over `k` of left(i 0, k) · right(k, i 1). -/
theorem product_apply (x : FVec Ideal S50000x64 .f32) (y : FVec Ideal S64x2 .f32) (i : S50000x2.Idx) :
    product x y i = ∑ k : Fin 64, x (lW i k) * y (rW i k) := by
  unfold product
  simp only [Host.dotGeneral]
  rw [Ideal.dotGeneral_apply, ← Equiv.sum_comp (ValueIdx.contrEquiv1 Cert.ReferenceIdeal.dot_S50000x64_S64x2_S50000x2_1_0_0_1_n_n 64 rfl rfl).symm]
  refine Finset.sum_congr rfl fun k _ => ?_
  have hk := ValueIdx.contrEquiv1_symm_val Cert.ReferenceIdeal.dot_S50000x64_S64x2_S50000x2_1_0_0_1_n_n 64 rfl rfl k
  have el : Cert.ReferenceIdeal.dot_S50000x64_S64x2_S50000x2_1_0_0_1_n_n.lhsIdx i ((ValueIdx.contrEquiv1 Cert.ReferenceIdeal.dot_S50000x64_S64x2_S50000x2_1_0_0_1_n_n 64 rfl rfl).symm k) = lW i k := funext fun a => Fin.ext (by
    match a with
    | ⟨0, _⟩ => exact whole_lhs_0 _ _
    | ⟨1, _⟩ => exact (whole_lhs_1 _ _).trans hk)
  have er : Cert.ReferenceIdeal.dot_S50000x64_S64x2_S50000x2_1_0_0_1_n_n.rhsIdx i ((ValueIdx.contrEquiv1 Cert.ReferenceIdeal.dot_S50000x64_S64x2_S50000x2_1_0_0_1_n_n 64 rfl rfl).symm k) = rW i k := funext fun a => Fin.ext (by
    match a with
    | ⟨0, _⟩ => exact (whole_rhs_0 _ _).trans hk
    | ⟨1, _⟩ => exact whole_rhs_1 _ _)
  rw [el, er]

/-- Entry `j` of what one grid point stores is the sum over `k` of tile(j 0, k) · right(k, j 1): the two changes of
    float format are the identity, and the accumulator is zero. -/
theorem tile_apply (x0 : Vec Ideal S2000x64 .f32) (x1 : Vec Ideal S64x2 .f32) (j : S2000x2.Idx) :
    k4_pay1 (F := Ideal) x0 x1 j = ∑ k : Fin 64, x0 (lB j k) * x1 (rB j k) := by
  show FloatOps.matmul (F := Ideal) dot_S2000x64_S64x2_S2000x2_1_0_0_1_n_n none (truncf (F := Ideal) .bf16 (shapeCast S2000x64 x0 shapeCasts_S2000x64_S2000x64) bitsLt_bf16_f32) (truncf (F := Ideal) .bf16 x1 bitsLt_bf16_f32) (constant (F := Ideal) S2000x2 .f32 0x00000000#32) j = _
  rw [shapeCast_self]
  rw [Ideal.matmul_constant_zero_apply, ← Equiv.sum_comp (ValueIdx.contrEquiv1 dot_S2000x64_S64x2_S2000x2_1_0_0_1_n_n 64 rfl rfl).symm]
  refine Finset.sum_congr rfl fun k _ => ?_
  have hk := ValueIdx.contrEquiv1_symm_val dot_S2000x64_S64x2_S2000x2_1_0_0_1_n_n 64 rfl rfl k
  have el : dot_S2000x64_S64x2_S2000x2_1_0_0_1_n_n.lhsIdx j ((ValueIdx.contrEquiv1 dot_S2000x64_S64x2_S2000x2_1_0_0_1_n_n 64 rfl rfl).symm k) = lB j k := funext fun a => Fin.ext (by
    match a with
    | ⟨0, _⟩ => exact tile_lhs_0 _ _
    | ⟨1, _⟩ => exact (tile_lhs_1 _ _).trans hk)
  have er : dot_S2000x64_S64x2_S2000x2_1_0_0_1_n_n.rhsIdx j ((ValueIdx.contrEquiv1 dot_S2000x64_S64x2_S2000x2_1_0_0_1_n_n 64 rfl rfl).symm k) = rB j k := funext fun a => Fin.ext (by
    match a with
    | ⟨0, _⟩ => exact (tile_rhs_0 _ _).trans hk
    | ⟨1, _⟩ => exact tile_rhs_1 _ _)
  rw [el, er]
  rfl

/-- A tile's product is the whole product read at the tile's place: when the tile's rows are the left array's rows
    at `e0`, the loaded right operand is the right array at `e1`, and the two placements send the operand positions of
    tile entry `j` to those of array entry `i`. -/
theorem tile_eq_product (x : FVec Ideal S50000x64 .f32) (y : FVec Ideal S64x2 .f32) (x0 : Vec Ideal S2000x64 .f32) (x1 : Vec Ideal S64x2 .f32)
    (j : S2000x2.Idx) (i : S50000x2.Idx) (e0 : S2000x64.Idx → S50000x64.Idx) (e1 : S64x2.Idx → S64x2.Idx)
    (h0 : ∀ p, x0 p = x (e0 p)) (h1 : ∀ p, x1 p = y (e1 p))
    (hl : ∀ k : Fin 64, e0 (lB j k) = lW i k) (hr : ∀ k : Fin 64, e1 (rB j k) = rW i k) :
    k4_pay1 (F := Ideal) x0 x1 j = product x y i := by
  rw [tile_apply, product_apply]
  exact Finset.sum_congr rfl fun k _ => by rw [h0, h1, hl k, hr k]

/-! ## From the tiles to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the output's tiles move down the rows with the point,
    the right operand stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- WHAT POINT `t` WRITES BACK is tile `t` of the whole product of the two input arrays as the region finds them. -/
theorem flushed_eq (c : Dev nD) (t : Fin cfg4.N) :
    (dat4 V c).flushed 2 t = ((cfg4.win 2).blk t).view.read (Elt Ideal) (product (V c main_v101) (V c main_arg10)) := by
  show (cfg4.win 2).cut (grid4.coords t) ((dat4 V c).after 2 t) = _
  rw [after4_2]
  unfold out4_2
  rw [View.canon_unit_zero hz]
  simp only [View.ld_unit_zero (S := S2000x64) hz, View.ld_unit_zero (S := S64x2) hz]
  obtain ⟨e0, e1, e2, e3, e4, e5⟩ := idx_facts t
  funext j
  refine tile_eq_product (V c main_v101) (V c main_arg10) _ _ j (((cfg4.win 2).blk t).view.emb j)
    (fun p => ((cfg4.win 0).blk t).view.emb p) (fun p => ((cfg4.win 1).blk t).view.emb p) (fun _ => rfl) (fun _ => rfl) ?_ ?_
  · intro k
    funext a; apply Fin.ext
    match a with
    | ⟨0, _⟩ => show win4_0.index t (0 : Fin 2) * 2000 + 1 * (j 0).val = win4_2.index t (0 : Fin 2) * 2000 + 1 * (j 0).val; omega
    | ⟨1, _⟩ => show win4_0.index t (1 : Fin 2) * 64 + 1 * k.val = k.val; omega
  · intro k
    funext a; apply Fin.ext
    match a with
    | ⟨0, _⟩ => show win4_1.index t (0 : Fin 2) * 64 + 1 * k.val = k.val; omega
    | ⟨1, _⟩ => show win4_1.index t (1 : Fin 2) * 2 + 1 * (j 1).val = win4_2.index t (1 : Fin 2) * 2 + 1 * (j 1).val; omega

/-- An index of the output array is in point `t`'s tile iff each coordinate is in the tile's range on its axis. -/
theorem mem_blk (t : Fin cfg4.N) (i : S50000x2.Idx) :
    i ∈ ((cfg4.win 2).blk t).view.set ↔ ∀ a : Fin 2, win4_2.index t a * S2000x2.size a ≤ (i a).val ∧ (i a).val < win4_2.index t a * S2000x2.size a + S2000x2.size a := by
  show i ∈ ((View.whole main_v102).slice (win4_2.rect t)).set ↔ _
  rw [View.set_slice_whole, Rect.mem_set_unit]
  exact Iff.rfl

/-- Row `r` lies in the tile of point `r / 2000`: the 25 tiles cover the array. -/
theorem cover (i : S50000x2.Idx) : ∃ t : Fin cfg4.N, (cfg4.win 2).flush t = true ∧ i ∈ ((cfg4.win 2).blk t).view.set := by
  have hi0 : (i 0).val < 50000 := (i 0).isLt
  have hi1 : (i 1).val < 2 := (i 1).isLt
  have hN : grid4.N = 25 := N_4
  have hlt : (i 0).val / 2000 < cfg4.N := by show _ < grid4.N; omega
  obtain ⟨e0, e1, e2, e3, e4, e5⟩ := idx_facts ⟨(i 0).val / 2000, hlt⟩
  refine ⟨⟨(i 0).val / 2000, hlt⟩, flush4_2 _, ?_⟩
  rw [mem_blk]
  intro a
  match a with
  | ⟨0, _⟩ =>
    show win4_2.index ⟨(i 0).val / 2000, hlt⟩ (0 : Fin 2) * 2000 ≤ (i 0).val ∧ (i 0).val < win4_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win4_2.index ⟨(i 0).val / 2000, hlt⟩ (1 : Fin 2) * 2 ≤ (i 1).val ∧ (i 1).val < win4_2.index ⟨(i 0).val / 2000, hlt⟩ (1 : Fin 2) * 2 + 2
    omega

/-- THE OUTPUT ARRAY after the region: the whole product of the input arrays as the region found them. -/
theorem region_value (c : Dev nD) : (dat4 V c).arrAt 2 cfg4.N = product (V c main_v101) (V c main_arg10) :=
  (dat4 V c).arrAt_eq_of_cover 2 _ (fun t _ => flushed_eq V c t) cover

/-! ## The region as one host operation on the buffer contents -/

/-- The host matrix product from the left and right buffers into the output buffer. -/
def productOp : HloOp τ sig (Elt Ideal) :=
  StableHlo.binary main_v101 main_arg10 main_v102 ((fun l r => product l r) : (⟨S50000x64, .f32⟩ : BufTy).Contents (Elt Ideal) → (⟨S64x2, .f32⟩ : BufTy).Contents (Elt Ideal) → (⟨S50000x2, .f32⟩ : BufTy).Contents (Elt Ideal))

/-- What the region leaves of a core's buffer contents — its three arrays at what the pipeline leaves, every other
    buffer as entered — is what the one host product leaves: the output buffer at the product of the two inputs,
    everything else, the two inputs included, as it was. -/
theorem exit_eq (Wc : Dev nD → Valuation τ sig (Elt Ideal)) (c : Dev nD) :
    Pipeline.withArrays spec4 c (Wc c) (fun w => (dat4 (fun c b => Wc c (Proc.devRef .tc b)) c).arrAt w cfg4.N)
      = productOp.result (Wc c) := by
  funext b
  by_cases hb : b = Proc.devRef .tc main_v102
  · subst hb
    unfold productOp
    rw [StableHlo.binary_result]
    exact (Pipeline.withArrays_arr spec4 launch4.win.arr_inj c _ _ 2).trans (region_value _ c)
  · have hnw : b ∉ (productOp).writes := by
      unfold productOp
      rw [StableHlo.binary_writes, Finset.mem_singleton]
      exact hb
    rw [HloOp.result_of_not_mem _ _ hnw]
    by_cases h0 : b = Proc.devRef .tc main_v101
    · subst h0
      exact (Pipeline.withArrays_arr spec4 launch4.win.arr_inj c _ _ 0).trans (((dat4 _ c).arrAt_in 0 rfl _).trans (A_eq4 _ c 0))
    · by_cases h1 : b = Proc.devRef .tc main_arg10
      · subst h1
        exact (Pipeline.withArrays_arr spec4 launch4.win.arr_inj c _ _ 1).trans (((dat4 _ c).arrAt_in 1 rfl _).trans (A_eq4 _ c 1))
      · unfold Pipeline.withArrays
        refine dif_neg ?_
        rintro ⟨w, e⟩
        match w with
        | ⟨0, _⟩ => exact h0 e.symm
        | ⟨1, _⟩ => exact h1 e.symm
        | ⟨2, _⟩ => exact hb e.symm

end Cert.KernelIdeal.Layer4

end
-- ==== Proof.KernelValue.lean ====
/-
  The idealized kernel program's result. Each of the five row-tiled regions acts on the buffer contents as the one host
  matrix product of its layer (the layer modules), so the contents at the end of the program are the fold of ONE
  straight line of host operations over the launch memory: the program's own stretches of host operations with the
  five products in the regions' places. The reference program is the same line of operations — degree normalisation,
  then five times (product, gather along the edges, scale, scatter-add, bias, and a rectifier after the first four),
  then the log-softmax over the two classes — with the same five products. Read at the result buffer, both folds
  unfold, operation by operation, to the same composed term of the argument arrays; the two programs name their
  shapes and dimension records separately, with equal definitions, and the arguments agree by hypothesis.
-/
import proofs.«114422_j45749991637433_1_alg».proof.Proof.FinalContents
import proofs.«114422_j45749991637433_1_alg».proof.Proof.ReferenceFold
import proofs.«114422_j45749991637433_1_alg».proof.Proof.Layer0
import proofs.«114422_j45749991637433_1_alg».proof.Proof.Layer1
import proofs.«114422_j45749991637433_1_alg».proof.Proof.Layer2
import proofs.«114422_j45749991637433_1_alg».proof.Proof.Layer3
import proofs.«114422_j45749991637433_1_alg».proof.Proof.Layer4
import Idealize.ShloMosaic.Lib.StableHlo.Run

set_option maxRecDepth 65536

noncomputable section

namespace Cert.KernelIdeal.Whole

open Idealize.ShloMosaic Idealize.ShloMosaic.TcCoe Idealize.SL.Sem Idealize.ShloMosaic.StableHlo
open Cert.KernelIdeal Cert.KernelIdeal.Gen

/-! ## Small facts about the host line's vocabulary -/

/-- Contents carried to a buffer's own type and back are unchanged. -/
theorem ofBuf_toBuf {sg : RefSig} {T : BufTy} {Val : EltTy → Type} (x : TRef sg T) (v : T.Contents Val) : x.ofBuf (x.toBuf v) = v := by
  obtain ⟨r, h, _, _⟩ := x; subst h; rfl
theorem toBuf_ofBuf {sg : RefSig} {T : BufTy} {Val : EltTy → Type} (x : TRef sg T) (u : x.ref.ty.Contents Val) : x.toBuf (x.ofBuf u) = u := by
  obtain ⟨r, h, _, _⟩ := x; subst h; rfl

/-- The 400000 given edge ends followed by the 50000 self-loop ends. -/
def edgesThenLoops {α : Type} (a : S400000.Idx → α) (b : S50000.Idx → α) : S450000.Idx → α :=
  concatenate S450000 0 [⟨S400000, a⟩, ⟨S50000, b⟩] concatenates_S400000_S50000_S450000_d0

/-- Either program's concatenation of the two pieces is that array (the two programs name the three shapes
    separately, with equal definitions). -/
theorem concat_kernel {α : Type} (a : S400000.Idx → α) (b : S50000.Idx → α) (h) :
    concatenate S450000 0 [⟨S400000, a⟩, ⟨S50000, b⟩] h = edgesThenLoops a b := rfl
theorem concat_reference {α : Type} (a : Cert.ReferenceIdeal.S400000.Idx → α) (b : Cert.ReferenceIdeal.S50000.Idx → α) (h) :
    concatenate Cert.ReferenceIdeal.S450000 0 [⟨Cert.ReferenceIdeal.S400000, a⟩, ⟨Cert.ReferenceIdeal.S50000, b⟩] h = edgesThenLoops a b := rfl

variable (m : (ℓ : Loc nD τ sig) → Buf (Elt Ideal) ℓ) (ρ : Dev nD → PrngReg)

/-! ## Each region's exit contents are its layer's host product applied to its entry contents -/

theorem W4_eq (c : Dev nD) : W4 (F := Ideal) m ρ c = Layer0.productOp.result (W3 m ρ c) := by
  unfold W4; exact Layer0.exit_eq (W3 m ρ) c
theorem W7_eq (c : Dev nD) : W7 (F := Ideal) m ρ c = Layer1.productOp.result (W6 m ρ c) := by
  unfold W7; exact Layer1.exit_eq (W6 m ρ) c
theorem W10_eq (c : Dev nD) : W10 (F := Ideal) m ρ c = Layer2.productOp.result (W9 m ρ c) := by
  unfold W10; exact Layer2.exit_eq (W9 m ρ) c
theorem W13_eq (c : Dev nD) : W13 (F := Ideal) m ρ c = Layer3.productOp.result (W12 m ρ c) := by
  unfold W13; exact Layer3.exit_eq (W12 m ρ) c
theorem W16_eq (c : Dev nD) : W16 (F := Ideal) m ρ c = Layer4.productOp.result (W15 m ρ c) := by
  unfold W16; exact Layer4.exit_eq (W15 m ρ) c

/-! ## The result buffer at the end of the program -/

set_option maxHeartbeats 160000000 in
/-- The kernel program's final contents at its result buffer are the reference's result, when the reference's launch
    contents at its twelve arguments are the kernel's. -/
theorem result_eq (m' : (ℓ : Loc Cert.ReferenceIdeal.nD Cert.ReferenceIdeal.τ Cert.ReferenceIdeal.sig) → Buf (Elt Ideal) ℓ) (c : Dev nD)
    (h0 : @Eq (BufTy.Contents (Elt Ideal) (Proc.devRef (τ := τ) .tc main_arg0).ty) (launchContents m' c (Proc.devRef .tc Cert.ReferenceIdeal.main_arg0)) (W0 (F := Ideal) m ρ c (Proc.devRef .tc main_arg0)))
    (h1 : @Eq (BufTy.Contents (Elt Ideal) (Proc.devRef (τ := τ) .tc main_arg1).ty) (launchContents m' c (Proc.devRef .tc Cert.ReferenceIdeal.main_arg1)) (W0 (F := Ideal) m ρ c (Proc.devRef .tc main_arg1)))
    (h2 : @Eq (BufTy.Contents (Elt Ideal) (Proc.devRef (τ := τ) .tc main_arg2).ty) (launchContents m' c (Proc.devRef .tc Cert.ReferenceIdeal.main_arg2)) (W0 (F := Ideal) m ρ c (Proc.devRef .tc main_arg2)))
    (h3 : @Eq (BufTy.Contents (Elt Ideal) (Proc.devRef (τ := τ) .tc main_arg3).ty) (launchContents m' c (Proc.devRef .tc Cert.ReferenceIdeal.main_arg3)) (W0 (F := Ideal) m ρ c (Proc.devRef .tc main_arg3)))
    (h4 : @Eq (BufTy.Contents (Elt Ideal) (Proc.devRef (τ := τ) .tc main_arg4).ty) (launchContents m' c (Proc.devRef .tc Cert.ReferenceIdeal.main_arg4)) (W0 (F := Ideal) m ρ c (Proc.devRef .tc main_arg4)))
    (h5 : @Eq (BufTy.Contents (Elt Ideal) (Proc.devRef (τ := τ) .tc main_arg5).ty) (launchContents m' c (Proc.devRef .tc Cert.ReferenceIdeal.main_arg5)) (W0 (F := Ideal) m ρ c (Proc.devRef .tc main_arg5)))
    (h6 : @Eq (BufTy.Contents (Elt Ideal) (Proc.devRef (τ := τ) .tc main_arg6).ty) (launchContents m' c (Proc.devRef .tc Cert.ReferenceIdeal.main_arg6)) (W0 (F := Ideal) m ρ c (Proc.devRef .tc main_arg6)))
    (h7 : @Eq (BufTy.Contents (Elt Ideal) (Proc.devRef (τ := τ) .tc main_arg7).ty) (launchContents m' c (Proc.devRef .tc Cert.ReferenceIdeal.main_arg7)) (W0 (F := Ideal) m ρ c (Proc.devRef .tc main_arg7)))
    (h8 : @Eq (BufTy.Contents (Elt Ideal) (Proc.devRef (τ := τ) .tc main_arg8).ty) (launchContents m' c (Proc.devRef .tc Cert.ReferenceIdeal.main_arg8)) (W0 (F := Ideal) m ρ c (Proc.devRef .tc main_arg8)))
    (h9 : @Eq (BufTy.Contents (Elt Ideal) (Proc.devRef (τ := τ) .tc main_arg9).ty) (launchContents m' c (Proc.devRef .tc Cert.ReferenceIdeal.main_arg9)) (W0 (F := Ideal) m ρ c (Proc.devRef .tc main_arg9)))
    (h10 : @Eq (BufTy.Contents (Elt Ideal) (Proc.devRef (τ := τ) .tc main_arg10).ty) (launchContents m' c (Proc.devRef .tc Cert.ReferenceIdeal.main_arg10)) (W0 (F := Ideal) m ρ c (Proc.devRef .tc main_arg10)))
    (h11 : @Eq (BufTy.Contents (Elt Ideal) (Proc.devRef (τ := τ) .tc main_arg11).ty) (launchContents m' c (Proc.devRef .tc Cert.ReferenceIdeal.main_arg11)) (W0 (F := Ideal) m ρ c (Proc.devRef .tc main_arg11))) :
    W18 (F := Ideal) m ρ c (Proc.devRef .tc main_v119)
      = (Cert.ReferenceIdeal.Fold.result (F := Ideal) m' c : Buf (Elt Ideal) ((c.tc : Thread nD τ).loc main_v119)) := by
  unfold Cert.ReferenceIdeal.Fold.result
  simp only [W18, W17, W16_eq, W15, W14, W13_eq, W12, W11, W10_eq, W9, W8, W7_eq, W6, W5, W4_eq, W3, W2, W1,
    Layer0.productOp, Layer1.productOp, Layer2.productOp, Layer3.productOp, Layer4.productOp,
    hostOps0, hostOps0_1, hostOps0_2, hostOps1, hostOps1_1, hostOps2, hostOps2_1, hostOps3, hostOps3_1, hostOps4, hostOps4_1,
    hostOps5, hostOps5_1, Cert.ReferenceIdeal.ValueP.ops]
  after_results_simp
  simp only [concat_kernel, concat_reference]
  after_results_simp
  simp only [ofBuf_toBuf, toBuf_ofBuf, id_eq, h0, h1, h2, h3, h4, h5, h6, h7, h8, h9, h10, h11]
  rfl

end Cert.KernelIdeal.Whole

end
-- ==== Proof.lean ====
/-
  A five-layer graph convolutional network over 50000 nodes and 400000 edges (plus one self-loop per node), with
  feature widths 128 → 256 → 512 → 256 → 64 → 2 and a log-softmax over the two classes. Both programs compute, from the
  edge list, the symmetric normalisation d(src)^(-1/2) · d(dst)^(-1/2) of every edge, and then per layer: the dense
  transform h · W, the normalised messages gathered along the edges and summed into their destination nodes, the bias,
  and (after the first four layers) the rectifier. The kernel program computes each dense transform in 25 row tiles of
  2000 rows, with the operands cast to a narrower float format first; the reference computes it as one matrix product.
  On the extended reals a change of float format is the identity and a tile's product is the whole product read at the
  tile's rows, so each tiled transform IS the whole product (the layer modules); everything else is the same line of
  host operations in both programs, so the two results are one term of the argument arrays (KernelValue.lean). No law
  of the extended reals beyond reading a product as a sum over the contracted axis is used, and finiteness of the
  inputs is never needed.
-/
import proofs.«114422_j45749991637433_1_alg».proof.Defs
import proofs.«114422_j45749991637433_1_alg».proof.Proof.Gen.Kernel
import proofs.«114422_j45749991637433_1_alg».proof.Proof.Gen.Kernel.Frame
import proofs.«114422_j45749991637433_1_alg».proof.Proof.Gen.KernelIdeal
import proofs.«114422_j45749991637433_1_alg».proof.Proof.Gen.KernelIdeal.Frame
import proofs.«114422_j45749991637433_1_alg».proof.Proof.Gen.ReferenceIdeal
import proofs.«114422_j45749991637433_1_alg».proof.Proof.Gen.Pre_finite_inputs
import proofs.«114422_j45749991637433_1_alg».proof.Proof.FinalContents
import proofs.«114422_j45749991637433_1_alg».proof.Proof.ReferenceFold
import proofs.«114422_j45749991637433_1_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Fold.run (F := Ideal) m ρ)

/-- The idealizing pass rewrote nothing in this kernel: there is nothing to preserve. -/
theorem preserves : Cert.preserves_Kernel_KernelIdeal := trivial

/-- From memories that agree on the twelve arguments both programs end with the same [50000, 2] array of
    log-probabilities: the reference's fold of its operations read at its result buffer, which the kernel program's final contents at
    its result buffer equal (`Whole.result_eq`), the kernel's arguments being read back unchanged off the same final
    contents. -/
theorem algebraic : Cert.algebraic_KernelIdeal_ReferenceIdeal := by
  intro m ρ m' ρ' _ hagree
  refine ⟨fun c => Cert.ReferenceIdeal.Fold.result (F := Ideal) m' c, ?_, Cert.ReferenceIdeal.Fold.run (F := Ideal) m' ρ'⟩
  refine Cert.KernelIdeal.Whole.run_final m ρ (fun s h c => ?_)
  obtain ⟨a0, a1, a2, a3, a4, a5, a6, a7, a8, a9, a10, a11⟩ := hagree c
  exact ⟨(h c _ Cert.KernelIdeal.Whole.result_unscoped).trans (Cert.KernelIdeal.Whole.result_eq m ρ m' c a0 a1 a2 a3 a4 a5 a6 a7 a8 a9 a10 a11),
    (h c _ (Cert.KernelIdeal.Gen.mem_uc Cert.KernelIdeal.main_arg0 (by decide))).trans (Cert.KernelIdeal.Gen.W18_main_arg0 m ρ c),
    (h c _ (Cert.KernelIdeal.Gen.mem_uc Cert.KernelIdeal.main_arg1 (by decide))).trans (Cert.KernelIdeal.Gen.W18_main_arg1 m ρ c),
    (h c _ (Cert.KernelIdeal.Gen.mem_uc Cert.KernelIdeal.main_arg2 (by decide))).trans (Cert.KernelIdeal.Gen.W18_main_arg2 m ρ c),
    (h c _ (Cert.KernelIdeal.Gen.mem_uc Cert.KernelIdeal.main_arg3 (by decide))).trans (Cert.KernelIdeal.Gen.W18_main_arg3 m ρ c),
    (h c _ (Cert.KernelIdeal.Gen.mem_uc Cert.KernelIdeal.main_arg4 (by decide))).trans (Cert.KernelIdeal.Gen.W18_main_arg4 m ρ c),
    (h c _ (Cert.KernelIdeal.Gen.mem_uc Cert.KernelIdeal.main_arg5 (by decide))).trans (Cert.KernelIdeal.Gen.W18_main_arg5 m ρ c),
    (h c _ (Cert.KernelIdeal.Gen.mem_uc Cert.KernelIdeal.main_arg6 (by decide))).trans (Cert.KernelIdeal.Gen.W18_main_arg6 m ρ c),
    (h c _ (Cert.KernelIdeal.Gen.mem_uc Cert.KernelIdeal.main_arg7 (by decide))).trans (Cert.KernelIdeal.Gen.W18_main_arg7 m ρ c),
    (h c _ (Cert.KernelIdeal.Gen.mem_uc Cert.KernelIdeal.main_arg8 (by decide))).trans (Cert.KernelIdeal.Gen.W18_main_arg8 m ρ c),
    (h c _ (Cert.KernelIdeal.Gen.mem_uc Cert.KernelIdeal.main_arg9 (by decide))).trans (Cert.KernelIdeal.Gen.W18_main_arg9 m ρ c),
    (h c _ (Cert.KernelIdeal.Gen.mem_uc Cert.KernelIdeal.main_arg10 (by decide))).trans (Cert.KernelIdeal.Gen.W18_main_arg10 m ρ c),
    (h c _ (Cert.KernelIdeal.Gen.mem_uc Cert.KernelIdeal.main_arg11 (by decide))).trans (Cert.KernelIdeal.Gen.W18_main_arg11 m ρ c)⟩

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
